-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v86) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x768 : Shape := ⟨2, ![65536, 768]⟩
abbrev S64x768 : Shape := ⟨2, ![64, 768]⟩
abbrev S32x64 : Shape := ⟨2, ![32, 64]⟩
abbrev S4x32 : Shape := ⟨2, ![4, 32]⟩
abbrev S_ : Shape := ⟨0, ![]⟩

class Facts : Prop where
  bcast_S_S65536x768 : S_.BroadcastsInDim S65536x768 (![] : Fin 0 → Fin S65536x768.rank)
  reducesTo_S65536x768_S_d0_1 : S65536x768.ReducesTo [0, 1] S_
  h_S_ : 0 < S_.numel
  bcast_S_S64x768 : S_.BroadcastsInDim S64x768 (![] : Fin 0 → Fin S64x768.rank)
  reducesTo_S64x768_S_d0_1 : S64x768.ReducesTo [0, 1] S_
  bcast_S_S32x64 : S_.BroadcastsInDim S32x64 (![] : Fin 0 → Fin S32x64.rank)
  reducesTo_S32x64_S_d0_1 : S32x64.ReducesTo [0, 1] S_
  bcast_S_S4x32 : S_.BroadcastsInDim S4x32 (![] : Fin 0 → Fin S4x32.rank)
  reducesTo_S4x32_S_d0_1 : S4x32.ReducesTo [0, 1] S_

variable [Facts]

def fn_part1 {F : FTy → Type} [FloatOps F] (main_v13 : IVec S_ 1) (main_v16 : IVec S4x32 1) : IVec S_ 1 :=
  let main_c_5 : IVec S_ 1 := constantI S_ 1 1#1
  let main_v17 : IVec S_ 1 := (fun x v => Host.reduce IntOp.andi x v reducesTo_S4x32_S_d0_1 h_S_) main_v16 main_c_5
  let main_v18 : IVec S_ 1 := andi main_v13 main_v17
  main_v18

def fn {F : FTy → Type} [FloatOps F] (main_arg0 : FVec F S65536x768 .f32) (main_arg1 : FVec F S64x768 .f32) (main_arg2 : FVec F S32x64 .f32) (main_arg3 : FVec F S4x32 .f32) : IVec S_ 1 :=
  let main_v0 : FVec F S65536x768 .f32 := Host.absf main_arg0
  let main_cst : FVec F S_ .f32 := constant S_ .f32 0x7F800000#32
  let main_v1 : FVec F S65536x768 .f32 := broadcastInDim S65536x768 ![] bcast_S_S65536x768 main_cst
  let main_v2 : IVec S65536x768 1 := cmpf .olt main_v0 main_v1
  let main_c : IVec S_ 1 := constantI S_ 1 1#1
  let main_v3 : IVec S_ 1 := (fun x v => Host.reduce IntOp.andi x v reducesTo_S65536x768_S_d0_1 h_S_) main_v2 main_c
  let main_v4 : FVec F S64x768 .f32 := Host.absf main_arg1
  let main_cst_0 : FVec F S_ .f32 := constant S_ .f32 0x7F800000#32
  let main_v5 : FVec F S64x768 .f32 := broadcastInDim S64x768 ![] bcast_S_S64x768 main_cst_0
  let main_v6 : IVec S64x768 1 := cmpf .olt main_v4 main_v5
  let main_c_1 : IVec S_ 1 := constantI S_ 1 1#1
  let main_v7 : IVec S_ 1 := (fun x v => Host.reduce IntOp.andi x v reducesTo_S64x768_S_d0_1 h_S_) main_v6 main_c_1
  let main_v8 : IVec S_ 1 := andi main_v3 main_v7
  let main_v9 : FVec F S32x64 .f32 := Host.absf main_arg2
  let main_cst_2 : FVec F S_ .f32 := constant S_ .f32 0x7F800000#32
  let main_v10 : FVec F S32x64 .f32 := broadcastInDim S32x64 ![] bcast_S_S32x64 main_cst_2
  let main_v11 : IVec S32x64 1 := cmpf .olt main_v9 main_v10
  let main_c_3 : IVec S_ 1 := constantI S_ 1 1#1
  let main_v12 : IVec S_ 1 := (fun x v => Host.reduce IntOp.andi x v reducesTo_S32x64_S_d0_1 h_S_) main_v11 main_c_3
  let main_v13 : IVec S_ 1 := andi main_v8 main_v12
  let main_v14 : FVec F S4x32 .f32 := Host.absf main_arg3
  let main_cst_4 : FVec F S_ .f32 := constant S_ .f32 0x7F800000#32
  let main_v15 : FVec F S4x32 .f32 := broadcastInDim S4x32 ![] bcast_S_S4x32 main_cst_4
  let main_v16 : IVec S4x32 1 := cmpf .olt main_v14 main_v15
  fn_part1 (F := F) main_v13 main_v16
-- ==== Kernel.lean ====
abbrev S65536x768 : Shape := ⟨2, ![65536, 768]⟩
abbrev S64x768 : Shape := ⟨2, ![64, 768]⟩
abbrev S32x64 : Shape := ⟨2, ![32, 64]⟩
abbrev S4x32 : Shape := ⟨2, ![4, 32]⟩
abbrev S_ : Shape := ⟨0, ![]⟩
abbrev S64 : Shape := ⟨1, ![64]⟩
abbrev S1x64 : Shape := ⟨2, ![1, 64]⟩
abbrev S32 : Shape := ⟨1, ![32]⟩
abbrev S1x32 : Shape := ⟨2, ![1, 32]⟩
abbrev S4 : Shape := ⟨1, ![4]⟩
abbrev S1x4 : Shape := ⟨2, ![1, 4]⟩
abbrev S65536x4 : Shape := ⟨2, ![65536, 4]⟩
abbrev S2048x768 : Shape := ⟨2, ![2048, 768]⟩
abbrev S2048x4 : Shape := ⟨2, ![2048, 4]⟩
abbrev S2048x64 : Shape := ⟨2, ![2048, 64]⟩
abbrev S2048 : Shape := ⟨1, ![2048]⟩
abbrev S2048x1 : Shape := ⟨2, ![2048, 1]⟩
abbrev S2048x32 : Shape := ⟨2, ![2048, 32]⟩

abbrev nBuf : Space → Nat
  | .hbm => 44
  | .vmem => 10
  | .smem => 0
  | _ => 0

abbrev bufTy : (tb : Table) → Fin (tcTables nBuf tb) → BufTy
  | .hbm, ⟨0, _⟩ => ⟨S65536x768, .f32⟩
  | .hbm, ⟨1, _⟩ => ⟨S64x768, .f32⟩
  | .hbm, ⟨2, _⟩ => ⟨S32x64, .f32⟩
  | .hbm, ⟨3, _⟩ => ⟨S4x32, .f32⟩
  | .hbm, ⟨4, _⟩ => ⟨S_, .f32⟩
  | .hbm, ⟨5, _⟩ => ⟨S64x768, .f32⟩
  | .hbm, ⟨6, _⟩ => ⟨S64x768, .i1⟩
  | .hbm, ⟨7, _⟩ => ⟨S_, .f32⟩
  | .hbm, ⟨8, _⟩ => ⟨S_, .f32⟩
  | .hbm, ⟨9, _⟩ => ⟨S64x768, .f32⟩
  | .hbm, ⟨10, _⟩ => ⟨S64x768, .f32⟩
  | .hbm, ⟨11, _⟩ => ⟨S64x768, .f32⟩
  | .hbm, ⟨12, _⟩ => ⟨S64x768, .f32⟩
  | .hbm, ⟨13, _⟩ => ⟨S64x768, .bf16⟩
  | .hbm, ⟨14, _⟩ => ⟨S_, .f32⟩
  | .hbm, ⟨15, _⟩ => ⟨S64, .f32⟩
  | .hbm, ⟨16, _⟩ => ⟨S1x64, .f32⟩
  | .hbm, ⟨17, _⟩ => ⟨S_, .f32⟩
  | .hbm, ⟨18, _⟩ => ⟨S32x64, .f32⟩
  | .hbm, ⟨19, _⟩ => ⟨S32x64, .i1⟩
  | .hbm, ⟨20, _⟩ => ⟨S_, .f32⟩
  | .hbm, ⟨21, _⟩ => ⟨S_, .f32⟩
  | .hbm, ⟨22, _⟩ => ⟨S32x64, .f32⟩
  | .hbm, ⟨23, _⟩ => ⟨S32x64, .f32⟩
  | .hbm, ⟨24, _⟩ => ⟨S32x64, .f32⟩
  | .hbm, ⟨25, _⟩ => ⟨S32x64, .f32⟩
  | .hbm, ⟨26, _⟩ => ⟨S32x64, .bf16⟩
  | .hbm, ⟨27, _⟩ => ⟨S_, .f32⟩
  | .hbm, ⟨28, _⟩ => ⟨S32, .f32⟩
  | .hbm, ⟨29, _⟩ => ⟨S1x32, .f32⟩
  | .hbm, ⟨30, _⟩ => ⟨S_, .f32⟩
  | .hbm, ⟨31, _⟩ => ⟨S4x32, .f32⟩
  | .hbm, ⟨32, _⟩ => ⟨S4x32, .i1⟩
  | .hbm, ⟨33, _⟩ => ⟨S_, .f32⟩
  | .hbm, ⟨34, _⟩ => ⟨S_, .f32⟩
  | .hbm, ⟨35, _⟩ => ⟨S4x32, .f32⟩
  | .hbm, ⟨36, _⟩ => ⟨S4x32, .f32⟩
  | .hbm, ⟨37, _⟩ => ⟨S4x32, .f32⟩
  | .hbm, ⟨38, _⟩ => ⟨S4x32, .f32⟩
  | .hbm, ⟨39, _⟩ => ⟨S4x32, .bf16⟩
  | .hbm, ⟨40, _⟩ => ⟨S_, .f32⟩
  | .hbm, ⟨41, _⟩ => ⟨S4, .f32⟩
  | .hbm, ⟨42, _⟩ => ⟨S1x4, .f32⟩
  | .hbm, ⟨43, _⟩ => ⟨S65536x4, .f32⟩
  | .local _ .vmem, ⟨0, _⟩ => ⟨S2048x768, .f32⟩
  | .local _ .vmem, ⟨1, _⟩ => ⟨S2048x768, .f32⟩
  | .local _ .vmem, ⟨2, _⟩ => ⟨S64x768, .bf16⟩
  | .local _ .vmem, ⟨3, _⟩ => ⟨S1x64, .f32⟩
  | .local _ .vmem, ⟨4, _⟩ => ⟨S32x64, .bf16⟩
  | .local _ .vmem, ⟨5, _⟩ => ⟨S1x32, .f32⟩
  | .local _ .vmem, ⟨6, _⟩ => ⟨S4x32, .bf16⟩
  | .local _ .vmem, ⟨7, _⟩ => ⟨S1x4, .f32⟩
  | .local _ .vmem, ⟨8, _⟩ => ⟨S2048x4, .f32⟩
  | .local _ .vmem, ⟨9, _⟩ => ⟨S2048x4, .f32⟩
  | _, _ => ⟨S65536x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_cst_1 : Ref sig .tc := ⟨.hbm, 8, rfl⟩
abbrev main_call0_v0 : Ref sig .tc := ⟨.hbm, 9, rfl⟩
abbrev main_call0_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_cst_2 : Ref sig .tc := ⟨.hbm, 14, rfl⟩
abbrev main_v5 : Ref sig .tc := ⟨.hbm, 15, rfl⟩
abbrev main_v6 : Ref sig .tc := ⟨.hbm, 16, rfl⟩
abbrev main_cst_3 : Ref sig .tc := ⟨.hbm, 17, rfl⟩
abbrev main_v7 : Ref sig .tc := ⟨.hbm, 18, rfl⟩
abbrev main_v8 : Ref sig .tc := ⟨.hbm, 19, rfl⟩
abbrev main_cst_4 : Ref sig .tc := ⟨.hbm, 20, rfl⟩
abbrev main_cst_5 : Ref sig .tc := ⟨.hbm, 21, rfl⟩
abbrev main_call1_v0 : Ref sig .tc := ⟨.hbm, 22, rfl⟩
abbrev main_call1_v1 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_cst_6 : Ref sig .tc := ⟨.hbm, 27, rfl⟩
abbrev main_v12 : Ref sig .tc := ⟨.hbm, 28, rfl⟩
abbrev main_v13 : Ref sig .tc := ⟨.hbm, 29, rfl⟩
abbrev main_cst_7 : Ref sig .tc := ⟨.hbm, 30, rfl⟩
abbrev main_v14 : Ref sig .tc := ⟨.hbm, 31, rfl⟩
abbrev main_v15 : Ref sig .tc := ⟨.hbm, 32, rfl⟩
abbrev main_cst_8 : Ref sig .tc := ⟨.hbm, 33, rfl⟩
abbrev main_cst_9 : Ref sig .tc := ⟨.hbm, 34, rfl⟩
abbrev main_call2_v0 : Ref sig .tc := ⟨.hbm, 35, rfl⟩
abbrev main_call2_v1 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_cst_10 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x768 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S32x64 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4x32 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x4 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S2048x4 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  bcast_S_S64x768 : S_.BroadcastsInDim S64x768 (![] : Fin 0 → Fin S64x768.rank)
  bitsLt_bf16_f32 : FTy.bits .bf16 < FTy.bits .f32
  reducesTo_S64x768_S64_d1 : S64x768.ReducesTo [1] S64
  h_S_ : 0 < S_.numel
  shapeCasts_S64_S1x64 : S64.ShapeCasts S1x64
  bcast_S_S32x64 : S_.BroadcastsInDim S32x64 (![] : Fin 0 → Fin S32x64.rank)
  reducesTo_S32x64_S32_d1 : S32x64.ReducesTo [1] S32
  shapeCasts_S32_S1x32 : S32.ShapeCasts S1x32
  bcast_S_S4x32 : S_.BroadcastsInDim S4x32 (![] : Fin 0 → Fin S4x32.rank)
  reducesTo_S4x32_S4_d1 : S4x32.ReducesTo [1] S4
  shapeCasts_S4_S1x4 : S4.ShapeCasts S1x4
  inb_S2048x768_S2048x768_0_0 : ∀ a, (![0, 0] : Fin 2 → Nat) a + S2048x768.size a ≤ S2048x768.size a
  h_S2048x768 : 0 < S2048x768.numel
  inb_S64x768_S64x768_0_0 : ∀ a, (![0, 0] : Fin 2 → Nat) a + S64x768.size a ≤ S64x768.size a
  h_S64x768 : 0 < S64x768.numel
  shapeCasts_S64x768_S64x768 : S64x768.ShapeCasts S64x768
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2048x64 : S1x64.Broadcasts S2048x64
  reduces_S2048x768_S2048 : S2048x768.Reduces [1] S2048
  shapeCasts_S2048_S2048x1 : S2048.ShapeCasts S2048x1
  broadcasts_S2048x1_S2048x64 : S2048x1.Broadcasts S2048x64
  inb_S32x64_S32x64_0_0 : ∀ a, (![0, 0] : Fin 2 → Nat) a + S32x64.size a ≤ S32x64.size a
  h_S32x64 : 0 < S32x64.numel
  shapeCasts_S32x64_S32x64 : S32x64.ShapeCasts S32x64
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S2048x32 : S1x32.Broadcasts S2048x32
  reduces_S2048x64_S2048 : S2048x64.Reduces [1] S2048
  broadcasts_S2048x1_S2048x32 : S2048x1.Broadcasts S2048x32
  inb_S4x32_S4x32_0_0 : ∀ a, (![0, 0] : Fin 2 → Nat) a + S4x32.size a ≤ S4x32.size a
  h_S4x32 : 0 < S4x32.numel
  shapeCasts_S4x32_S4x32 : S4x32.ShapeCasts S4x32
  inb_S1x4_S1x4_0_0 : ∀ a, (![0, 0] : Fin 2 → Nat) a + S1x4.size a ≤ S1x4.size a
  h_S1x4 : 0 < S1x4.numel
  shapeCasts_S1x4_S1x4 : S1x4.ShapeCasts S1x4
  broadcasts_S1x4_S2048x4 : S1x4.Broadcasts S2048x4
  reduces_S2048x32_S2048 : S2048x32.Reduces [1] S2048
  broadcasts_S2048x1_S2048x4 : S2048x1.Broadcasts S2048x4
  inb_S2048x4_S2048x4_0_0 : ∀ a, (![0, 0] : Fin 2 → Nat) a + S2048x4.size a ≤ S2048x4.size a
  h_S2048x4 : 0 < S2048x4.numel
  dot_S2048x768_S64x768_S2048x64_1_1_0_0_n_n_wf : DotDims.WF S2048x768 S64x768 S2048x64 [1] [1] [0] [0] [] []
  dot_S2048x64_S32x64_S2048x32_1_1_0_0_n_n_wf : DotDims.WF S2048x64 S32x64 S2048x32 [1] [1] [0] [0] [] []
  dot_S2048x32_S4x32_S2048x4_1_1_0_0_n_n_wf : DotDims.WF S2048x32 S4x32 S2048x4 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x768.size a ≤ S65536x768.size a
  hwx0_0 : ∀ i : grid0.Coords, EltTy.bits .f32 = 32 ∨ (Rect.block (s := S65536x768) S2048x768.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x768.size a ≤ S64x768.size a
  hwx0_1 : ∀ i : grid0.Coords, EltTy.bits .bf16 = 32 ∨ (Rect.block (s := S64x768) S64x768.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S32x64.size a ≤ S32x64.size a
  hwx0_3 : ∀ i : grid0.Coords, EltTy.bits .bf16 = 32 ∨ (Rect.block (s := S32x64) S32x64.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x32.size a ≤ S1x32.size a
  hwx0_4 : ∀ i : grid0.Coords, EltTy.bits .f32 = 32 ∨ (Rect.block (s := S1x32) S1x32.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S4x32.size a ≤ S4x32.size a
  hwx0_5 : ∀ i : grid0.Coords, EltTy.bits .bf16 = 32 ∨ (Rect.block (s := S4x32) S4x32.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x4.size a ≤ S1x4.size a
  hwx0_6 : ∀ i : grid0.Coords, EltTy.bits .f32 = 32 ∨ (Rect.block (s := S1x4) S1x4.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S2048x4.size a ≤ S65536x4.size a
  hwx0_7 : ∀ i : grid0.Coords, EltTy.bits .f32 = 32 ∨ (Rect.block (s := S65536x4) S2048x4.size (cc0_transform_7 i) (hinb0_7 i)).WholeWords (EltTy.packing .f32)

variable [Facts₀]

def dot_S2048x768_S64x768_S2048x64_1_1_0_0_n_n : DotDims S2048x768 S64x768 S2048x64 where
  lhsContracting := [1]
  rhsContracting := [1]
  lhsNonContracting := [0]
  rhsNonContracting := [0]
  lhsBatch := []
  rhsBatch := []
  wf := dot_S2048x768_S64x768_S2048x64_1_1_0_0_n_n_wf
def dot_S2048x64_S32x64_S2048x32_1_1_0_0_n_n : DotDims S2048x64 S32x64 S2048x32 where
  lhsContracting := [1]
  rhsContracting := [1]
  lhsNonContracting := [0]
  rhsNonContracting := [0]
  lhsBatch := []
  rhsBatch := []
  wf := dot_S2048x64_S32x64_S2048x32_1_1_0_0_n_n_wf
def dot_S2048x32_S4x32_S2048x4_1_1_0_0_n_n : DotDims S2048x32 S4x32 S2048x4 where
  lhsContracting := [1]
  rhsContracting := [1]
  lhsNonContracting := [0]
  rhsNonContracting := [0]
  lhsBatch := []
  rhsBatch := []
  wf := dot_S2048x32_S4x32_S2048x4_1_1_0_0_n_n_wf

abbrev win0_0 : Pipeline.Window sig grid0 :=
  Pipeline.Window.ofSpec (Memref.whole main_arg0) S2048x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S64x768.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v6) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v11) S32x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v13) S1x32.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v18) S4x32.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v20) S1x4.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v21) S2048x4.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S65536x768 : Shape := ⟨2, ![65536, 768]⟩
abbrev S64x768 : Shape := ⟨2, ![64, 768]⟩
abbrev S32x64 : Shape := ⟨2, ![32, 64]⟩
abbrev S4x32 : Shape := ⟨2, ![4, 32]⟩
abbrev S_ : Shape := ⟨0, ![]⟩
abbrev S65536 : Shape := ⟨1, ![65536]⟩
abbrev S65536x1 : Shape := ⟨2, ![65536, 1]⟩
abbrev S65536x64 : Shape := ⟨2, ![65536, 64]⟩
abbrev S65536x32 : Shape := ⟨2, ![65536, 32]⟩
abbrev S65536x4 : Shape := ⟨2, ![65536, 4]⟩

abbrev nBuf : Space → Nat
  | .hbm => 124
  | .vmem => 0
  | .smem => 0
  | _ => 0

abbrev bufTy : (tb : Table) → Fin (tcTables nBuf tb) → BufTy
  | .hbm, ⟨0, _⟩ => ⟨S65536x768, .f32⟩
  | .hbm, ⟨1, _⟩ => ⟨S64x768, .f32⟩
  | .hbm, ⟨2, _⟩ => ⟨S32x64, .f32⟩
  | .hbm, ⟨3, _⟩ => ⟨S4x32, .f32⟩
  | .hbm, ⟨4, _⟩ => ⟨S_, .f32⟩
  | .hbm, ⟨5, _⟩ => ⟨S64x768, .f32⟩
  | .hbm, ⟨6, _⟩ => ⟨S64x768, .i1⟩
  | .hbm, ⟨7, _⟩ => ⟨S_, .f32⟩
  | .hbm, ⟨8, _⟩ => ⟨S_, .f32⟩
  | .hbm, ⟨9, _⟩ => ⟨S64x768, .f32⟩
  | .hbm, ⟨10, _⟩ => ⟨S64x768, .f32⟩
  | .hbm, ⟨11, _⟩ => ⟨S64x768, .f32⟩
  | .hbm, ⟨12, _⟩ => ⟨S64x768, .f32⟩
  | .hbm, ⟨13, _⟩ => ⟨S64x768, .f32⟩
  | .hbm, ⟨14, _⟩ => ⟨S64x768, .f32⟩
  | .hbm, ⟨15, _⟩ => ⟨S_, .f32⟩
  | .hbm, ⟨16, _⟩ => ⟨S65536x768, .f32⟩
  | .hbm, ⟨17, _⟩ => ⟨S65536x768, .f32⟩
  | .hbm, ⟨18, _⟩ => ⟨S_, .f32⟩
  | .hbm, ⟨19, _⟩ => ⟨S65536x768, .f32⟩
  | .hbm, ⟨20, _⟩ => ⟨S65536x768, .f32⟩
  | .hbm, ⟨21, _⟩ => ⟨S_, .f32⟩
  | .hbm, ⟨22, _⟩ => ⟨S65536x768, .f32⟩
  | .hbm, ⟨23, _⟩ => ⟨S65536x768, .f32⟩
  | .hbm, ⟨24, _⟩ => ⟨S_, .f32⟩
  | .hbm, ⟨25, _⟩ => ⟨S65536x768, .f32⟩
  | .hbm, ⟨26, _⟩ => ⟨S65536x768, .f32⟩
  | .hbm, ⟨27, _⟩ => ⟨S65536x768, .f32⟩
  | .hbm, ⟨28, _⟩ => ⟨S65536x768, .f32⟩
  | .hbm, ⟨29, _⟩ => ⟨S65536x768, .f32⟩
  | .hbm, ⟨30, _⟩ => ⟨S_, .f32⟩
  | .hbm, ⟨31, _⟩ => ⟨S65536, .f32⟩
  | .hbm, ⟨32, _⟩ => ⟨S65536x1, .f32⟩
  | .hbm, ⟨33, _⟩ => ⟨S65536x64, .f32⟩
  | .hbm, ⟨34, _⟩ => ⟨S65536x768, .f32⟩
  | .hbm, ⟨35, _⟩ => ⟨S64x768, .f32⟩
  | .hbm, ⟨36, _⟩ => ⟨S65536x64, .f32⟩
  | .hbm, ⟨37, _⟩ => ⟨S65536x64, .f32⟩
  | .hbm, ⟨38, _⟩ => ⟨S65536x64, .f32⟩
  | .hbm, ⟨39, _⟩ => ⟨S65536x64, .f32⟩
  | .hbm, ⟨40, _⟩ => ⟨S65536x64, .f32⟩
  | .hbm, ⟨41, _⟩ => ⟨S_, .f32⟩
  | .hbm, ⟨42, _⟩ => ⟨S65536x64, .f32⟩
  | .hbm, ⟨43, _⟩ => ⟨S65536x64, .f32⟩
  | .hbm, ⟨44, _⟩ => ⟨S_, .f32⟩
  | .hbm, ⟨45, _⟩ => ⟨S32x64, .f32⟩
  | .hbm, ⟨46, _⟩ => ⟨S32x64, .i1⟩
  | .hbm, ⟨47, _⟩ => ⟨S_, .f32⟩
  | .hbm, ⟨48, _⟩ => ⟨S_, .f32⟩
  | .hbm, ⟨49, _⟩ => ⟨S32x64, .f32⟩
  | .hbm, ⟨50, _⟩ => ⟨S32x64, .f32⟩
  | .hbm, ⟨51, _⟩ => ⟨S32x64, .f32⟩
  | .hbm, ⟨52, _⟩ => ⟨S32x64, .f32⟩
  | .hbm, ⟨53, _⟩ => ⟨S32x64, .f32⟩
  | .hbm, ⟨54, _⟩ => ⟨S32x64, .f32⟩
  | .hbm, ⟨55, _⟩ => ⟨S_, .f32⟩
  | .hbm, ⟨56, _⟩ => ⟨S65536x64, .f32⟩
  | .hbm, ⟨57, _⟩ => ⟨S65536x64, .f32⟩
  | .hbm, ⟨58, _⟩ => ⟨S_, .f32⟩
  | .hbm, ⟨59, _⟩ => ⟨S65536x64, .f32⟩
  | .hbm, ⟨60, _⟩ => ⟨S65536x64, .f32⟩
  | .hbm, ⟨61, _⟩ => ⟨S_, .f32⟩
  | .hbm, ⟨62, _⟩ => ⟨S65536x64, .f32⟩
  | .hbm, ⟨63, _⟩ => ⟨S65536x64, .f32⟩
  | .hbm, ⟨64, _⟩ => ⟨S_, .f32⟩
  | .hbm, ⟨65, _⟩ => ⟨S65536x64, .f32⟩
  | .hbm, ⟨66, _⟩ => ⟨S65536x64, .f32⟩
  | .hbm, ⟨67, _⟩ => ⟨S65536x64, .f32⟩
  | .hbm, ⟨68, _⟩ => ⟨S65536x64, .f32⟩
  | .hbm, ⟨69, _⟩ => ⟨S65536x64, .f32⟩
  | .hbm, ⟨70, _⟩ => ⟨S_, .f32⟩
  | .hbm, ⟨71, _⟩ => ⟨S65536, .f32⟩
  | .hbm, ⟨72, _⟩ => ⟨S65536x1, .f32⟩
  | .hbm, ⟨73, _⟩ => ⟨S65536x32, .f32⟩
  | .hbm, ⟨74, _⟩ => ⟨S65536x64, .f32⟩
  | .hbm, ⟨75, _⟩ => ⟨S32x64, .f32⟩
  | .hbm, ⟨76, _⟩ => ⟨S65536x32, .f32⟩
  | .hbm, ⟨77, _⟩ => ⟨S65536x32, .f32⟩
  | .hbm, ⟨78, _⟩ => ⟨S65536x32, .f32⟩
  | .hbm, ⟨79, _⟩ => ⟨S65536x32, .f32⟩
  | .hbm, ⟨80, _⟩ => ⟨S65536x32, .f32⟩
  | .hbm, ⟨81, _⟩ => ⟨S_, .f32⟩
  | .hbm, ⟨82, _⟩ => ⟨S65536x32, .f32⟩
  | .hbm, ⟨83, _⟩ => ⟨S65536x32, .f32⟩
  | .hbm, ⟨84, _⟩ => ⟨S_, .f32⟩
  | .hbm, ⟨85, _⟩ => ⟨S4x32, .f32⟩
  | .hbm, ⟨86, _⟩ => ⟨S4x32, .i1⟩
  | .hbm, ⟨87, _⟩ => ⟨S_, .f32⟩
  | .hbm, ⟨88, _⟩ => ⟨S_, .f32⟩
  | .hbm, ⟨89, _⟩ => ⟨S4x32, .f32⟩
  | .hbm, ⟨90, _⟩ => ⟨S4x32, .f32⟩
  | .hbm, ⟨91, _⟩ => ⟨S4x32, .f32⟩
  | .hbm, ⟨92, _⟩ => ⟨S4x32, .f32⟩
  | .hbm, ⟨93, _⟩ => ⟨S4x32, .f32⟩
  | .hbm, ⟨94, _⟩ => ⟨S4x32, .f32⟩
  | .hbm, ⟨95, _⟩ => ⟨S_, .f32⟩
  | .hbm, ⟨96, _⟩ => ⟨S65536x32, .f32⟩
  | .hbm, ⟨97, _⟩ => ⟨S65536x32, .f32⟩
  | .hbm, ⟨98, _⟩ => ⟨S_, .f32⟩
  | .hbm, ⟨99, _⟩ => ⟨S65536x32, .f32⟩
  | .hbm, ⟨100, _⟩ => ⟨S65536x32, .f32⟩
  | .hbm, ⟨101, _⟩ => ⟨S_, .f32⟩
  | .hbm, ⟨102, _⟩ => ⟨S65536x32, .f32⟩
  | .hbm, ⟨103, _⟩ => ⟨S65536x32, .f32⟩
  | .hbm, ⟨104, _⟩ => ⟨S_, .f32⟩
  | .hbm, ⟨105, _⟩ => ⟨S65536x32, .f32⟩
  | .hbm, ⟨106, _⟩ => ⟨S65536x32, .f32⟩
  | .hbm, ⟨107, _⟩ => ⟨S65536x32, .f32⟩
  | .hbm, ⟨108, _⟩ => ⟨S65536x32, .f32⟩
  | .hbm, ⟨109, _⟩ => ⟨S65536x32, .f32⟩
  | .hbm, ⟨110, _⟩ => ⟨S_, .f32⟩
  | .hbm, ⟨111, _⟩ => ⟨S65536, .f32⟩
  | .hbm, ⟨112, _⟩ => ⟨S65536x1, .f32⟩
  | .hbm, ⟨113, _⟩ => ⟨S65536x4, .f32⟩
  | .hbm, ⟨114, _⟩ => ⟨S65536x32, .f32⟩
  | .hbm, ⟨115, _⟩ => ⟨S4x32, .f32⟩
  | .hbm, ⟨116, _⟩ => ⟨S65536x4, .f32⟩
  | .hbm, ⟨117, _⟩ => ⟨S65536x4, .f32⟩
  | .hbm, ⟨118, _⟩ => ⟨S65536x4, .f32⟩
  | .hbm, ⟨119, _⟩ => ⟨S65536x4, .f32⟩
  | .hbm, ⟨120, _⟩ => ⟨S65536x4, .f32⟩
  | .hbm, ⟨121, _⟩ => ⟨S_, .f32⟩
  | .hbm, ⟨122, _⟩ => ⟨S65536x4, .f32⟩
  | .hbm, ⟨123, _⟩ => ⟨S65536x4, .f32⟩
  | _, _ => ⟨S65536x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_cst_1 : Ref sig .tc := ⟨.hbm, 8, rfl⟩
abbrev main_call0_v0 : Ref sig .tc := ⟨.hbm, 9, rfl⟩
abbrev main_call0_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_cst_2 : Ref sig .tc := ⟨.hbm, 15, rfl⟩
abbrev main_v6 : Ref sig .tc := ⟨.hbm, 16, rfl⟩
abbrev main_v7 : Ref sig .tc := ⟨.hbm, 17, rfl⟩
abbrev main_cst_3 : Ref sig .tc := ⟨.hbm, 18, rfl⟩
abbrev main_v8 : Ref sig .tc := ⟨.hbm, 19, rfl⟩
abbrev main_v9 : Ref sig .tc := ⟨.hbm, 20, rfl⟩
abbrev main_cst_4 : Ref sig .tc := ⟨.hbm, 21, rfl⟩
abbrev main_v10 : Ref sig .tc := ⟨.hbm, 22, rfl⟩
abbrev main_v11 : Ref sig .tc := ⟨.hbm, 23, rfl⟩
abbrev main_cst_5 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_cst_6 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_7 : Ref sig .tc := ⟨.hbm, 41, rfl⟩
abbrev main_v27 : Ref sig .tc := ⟨.hbm, 42, rfl⟩
abbrev main_v28 : Ref sig .tc := ⟨.hbm, 43, rfl⟩
abbrev main_cst_8 : Ref sig .tc := ⟨.hbm, 44, rfl⟩
abbrev main_v29 : Ref sig .tc := ⟨.hbm, 45, rfl⟩
abbrev main_v30 : Ref sig .tc := ⟨.hbm, 46, rfl⟩
abbrev main_cst_9 : Ref sig .tc := ⟨.hbm, 47, rfl⟩
abbrev main_cst_10 : Ref sig .tc := ⟨.hbm, 48, rfl⟩
abbrev main_call1_v0 : Ref sig .tc := ⟨.hbm, 49, rfl⟩
abbrev main_call1_v1 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_cst_11 : Ref sig .tc := ⟨.hbm, 55, rfl⟩
abbrev main_v35 : Ref sig .tc := ⟨.hbm, 56, rfl⟩
abbrev main_v36 : Ref sig .tc := ⟨.hbm, 57, rfl⟩
abbrev main_cst_12 : Ref sig .tc := ⟨.hbm, 58, rfl⟩
abbrev main_v37 : Ref sig .tc := ⟨.hbm, 59, rfl⟩
abbrev main_v38 : Ref sig .tc := ⟨.hbm, 60, rfl⟩
abbrev main_cst_13 : Ref sig .tc := ⟨.hbm, 61, rfl⟩
abbrev main_v39 : Ref sig .tc := ⟨.hbm, 62, rfl⟩
abbrev main_v40 : Ref sig .tc := ⟨.hbm, 63, rfl⟩
abbrev main_cst_14 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_cst_15 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_cst_16 : Ref sig .tc := ⟨.hbm, 81, rfl⟩
abbrev main_v56 : Ref sig .tc := ⟨.hbm, 82, rfl⟩
abbrev main_v57 : Ref sig .tc := ⟨.hbm, 83, rfl⟩
abbrev main_cst_17 : Ref sig .tc := ⟨.hbm, 84, rfl⟩
abbrev main_v58 : Ref sig .tc := ⟨.hbm, 85, rfl⟩
abbrev main_v59 : Ref sig .tc := ⟨.hbm, 86, rfl⟩
abbrev main_cst_18 : Ref sig .tc := ⟨.hbm, 87, rfl⟩
abbrev main_cst_19 : Ref sig .tc := ⟨.hbm, 88, rfl⟩
abbrev main_call2_v0 : Ref sig .tc := ⟨.hbm, 89, rfl⟩
abbrev main_call2_v1 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_cst_20 : Ref sig .tc := ⟨.hbm, 95, rfl⟩
abbrev main_v64 : Ref sig .tc := ⟨.hbm, 96, rfl⟩
abbrev main_v65 : Ref sig .tc := ⟨.hbm, 97, rfl⟩
abbrev main_cst_21 : Ref sig .tc := ⟨.hbm, 98, rfl⟩
abbrev main_v66 : Ref sig .tc := ⟨.hbm, 99, rfl⟩
abbrev main_v67 : Ref sig .tc := ⟨.hbm, 100, rfl⟩
abbrev main_cst_22 : Ref sig .tc := ⟨.hbm, 101, rfl⟩
abbrev main_v68 : Ref sig .tc := ⟨.hbm, 102, rfl⟩
abbrev main_v69 : Ref sig .tc := ⟨.hbm, 103, rfl⟩
abbrev main_cst_23 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_cst_24 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_cst_25 : Ref sig .tc := ⟨.hbm, 121, rfl⟩
abbrev main_v85 : Ref sig .tc := ⟨.hbm, 122, rfl⟩
abbrev main_v86 : Ref sig .tc := ⟨.hbm, 123, rfl⟩

abbrev nD : Nat := 1
abbrev τ : Topo := Topo.v7x

variable {F : FTy → Type} [FloatOps F]

class Facts₀ : Prop where
  bcast_S_S64x768 : S_.BroadcastsInDim S64x768 (![] : Fin 0 → Fin S64x768.rank)
  bcast_S_S65536x768 : S_.BroadcastsInDim S65536x768 (![] : Fin 0 → Fin S65536x768.rank)
  reducesTo_S65536x768_S65536_d1 : S65536x768.ReducesTo [1] S65536
  h_S_ : 0 < S_.numel
  bcast_S65536_S65536x1_0 : S65536.BroadcastsInDim S65536x1 (![0] : Fin 1 → Fin S65536x1.rank)
  bcast_S65536x1_S65536x64_0_1 : S65536x1.BroadcastsInDim S65536x64 (![0, 1] : Fin 2 → Fin S65536x64.rank)
  bcast_S_S65536x64 : S_.BroadcastsInDim S65536x64 (![] : Fin 0 → Fin S65536x64.rank)
  bcast_S_S32x64 : S_.BroadcastsInDim S32x64 (![] : Fin 0 → Fin S32x64.rank)
  reducesTo_S65536x64_S65536_d1 : S65536x64.ReducesTo [1] S65536
  bcast_S65536x1_S65536x32_0_1 : S65536x1.BroadcastsInDim S65536x32 (![0, 1] : Fin 2 → Fin S65536x32.rank)
  bcast_S_S65536x32 : S_.BroadcastsInDim S65536x32 (![] : Fin 0 → Fin S65536x32.rank)
  bcast_S_S4x32 : S_.BroadcastsInDim S4x32 (![] : Fin 0 → Fin S4x32.rank)
  reducesTo_S65536x32_S65536_d1 : S65536x32.ReducesTo [1] S65536
  bcast_S65536x1_S65536x4_0_1 : S65536x1.BroadcastsInDim S65536x4 (![0, 1] : Fin 2 → Fin S65536x4.rank)
  bcast_S_S65536x4 : S_.BroadcastsInDim S65536x4 (![] : Fin 0 → Fin S65536x4.rank)
  dot_S65536x768_S64x768_S65536x64_1_1_0_0_n_n_wf : DotDims.WF S65536x768 S64x768 S65536x64 [1] [1] [0] [0] [] []
  dot_S65536x64_S32x64_S65536x32_1_1_0_0_n_n_wf : DotDims.WF S65536x64 S32x64 S65536x32 [1] [1] [0] [0] [] []
  dot_S65536x32_S4x32_S65536x4_1_1_0_0_n_n_wf : DotDims.WF S65536x32 S4x32 S65536x4 [1] [1] [0] [0] [] []

variable [Facts₀]

def dot_S65536x768_S64x768_S65536x64_1_1_0_0_n_n : DotDims S65536x768 S64x768 S65536x64 where
  lhsContracting := [1]
  rhsContracting := [1]
  lhsNonContracting := [0]
  rhsNonContracting := [0]
  lhsBatch := []
  rhsBatch := []
  wf := dot_S65536x768_S64x768_S65536x64_1_1_0_0_n_n_wf
def dot_S65536x64_S32x64_S65536x32_1_1_0_0_n_n : DotDims S65536x64 S32x64 S65536x32 where
  lhsContracting := [1]
  rhsContracting := [1]
  lhsNonContracting := [0]
  rhsNonContracting := [0]
  lhsBatch := []
  rhsBatch := []
  wf := dot_S65536x64_S32x64_S65536x32_1_1_0_0_n_n_wf
def dot_S65536x32_S4x32_S65536x4_1_1_0_0_n_n : DotDims S65536x32 S4x32 S65536x4 where
  lhsContracting := [1]
  rhsContracting := [1]
  lhsNonContracting := [0]
  rhsNonContracting := [0]
  lhsBatch := []
  rhsBatch := []
  wf := dot_S65536x32_S4x32_S65536x4_1_1_0_0_n_n_wf

class Facts : Prop extends Facts₀ where

variable [Facts]
-- ==== Proof.LibBinaryLayer.lean ====
/-
  One binarized stochastic linear layer, read on the extended reals.

  For a row p of activations and a row s of binarized weights, put e = 2p − 1. The layer's value is
      (c − Σ e² + (Σ e·s)²) / c²,          c the row length.
  Two arrangements of the same arithmetic occur. The direct one builds d = 4p(1 − p) and e, sums d + e² (which is
  identically 1, so the sum is c), contracts e against w + (s − w) (which is s when w is finite) and e² against the
  squares of the same weights (which are 1 when s = ±1). The rearranged one never forms e: it uses
      Σ e·s = 2 Σ p·s − Σ s        and        Σ e² = 4 Σ p² − 4 Σ p + c.
  Both identities distribute a product over a sum, and w + (s − w) = s cancels w; neither survives an infinite
  entry, so the statements below take every entry to be a real number. Their common value is then a real number
  again, which is what lets three such layers be composed.
-/
import Idealize.ShloMosaic.PureOps.Ideal

noncomputable section

namespace BinaryLayer

open Idealize.ShloMosaic

/-- The inclusion of the reals in the extended reals commutes with finite sums. -/
theorem coe_sum {α : Type} (t : Finset α) (f : α → ℝ) :
    ((∑ i ∈ t, f i : ℝ) : EReal) = ∑ i ∈ t, ((f i : ℝ) : EReal) := by
  classical
  induction t using Finset.induction_on with
  | empty => simp
  | insert a t ha ih => rw [Finset.sum_insert ha, Finset.sum_insert ha, EReal.coe_add, ih]

variable {ι : Type} [Fintype ι]

/-- The layer's value on real data: with e = 2p − 1, it is (c − Σ e² + (Σ e·s)²) / c². -/
def value (c : ℝ) (p s : ι → ℝ) : ℝ :=
  (c - ∑ l, (2 * p l - 1) ^ 2 + (∑ l, (2 * p l - 1) * s l) ^ 2) / (c * c)

/-- The rearranged form: (c − ((4 Σp² − 4 Σp) + c) + (2 Σ p·s − Σ s)²) / c², computed on the extended reals from real
    entries, is the layer's value. Here Σ(2p − 1)² = 4 Σp² − 4 Σp + c uses that the row has c entries. -/
theorem rearranged_form {c : ℝ} (hc : c ≠ 0) (hcard : (Fintype.card ι : ℝ) = c) (p s : ι → ℝ)
    {P S : ι → EReal} (hP : ∀ l, P l = ((p l : ℝ) : EReal)) (hS : ∀ l, S l = ((s l : ℝ) : EReal))
    {C CC F2 F4 RS : EReal} (hC : C = ((c : ℝ) : EReal)) (hCC : CC = ((c * c : ℝ) : EReal))
    (h2 : F2 = ((2 : ℝ) : EReal)) (h4 : F4 = ((4 : ℝ) : EReal)) (hRS : RS = ((∑ l, s l : ℝ) : EReal)) :
    Ideal.div ((C - ((F4 * ∑ l, P l * P l - F4 * ∑ l, P l) + C))
        + (F2 * ∑ l, P l * S l - RS) * (F2 * ∑ l, P l * S l - RS)) CC
      = ((value c p s : ℝ) : EReal) := by
  subst hC hCC h2 h4 hRS
  simp only [hP, hS]
  rw [Ideal.div_coe (mul_ne_zero hc hc)]
  simp only [← EReal.coe_mul, ← coe_sum, ← EReal.coe_sub, ← EReal.coe_add]
  rw [EReal.coe_eq_coe_iff]
  unfold value
  have e1 : ∑ l, (2 * p l - 1) ^ 2 = 4 * ∑ l, p l * p l - 4 * ∑ l, p l + c := by
    have h : ∀ l, (2 * p l - 1) ^ 2 = 4 * (p l * p l) - 4 * p l + 1 := fun l => by ring
    simp only [h, Finset.sum_add_distrib, Finset.sum_sub_distrib, ← Finset.mul_sum, Finset.sum_const,
      Finset.card_univ, nsmul_eq_mul, mul_one, hcard]
  have e2 : ∑ l, (2 * p l - 1) * s l = 2 * ∑ l, p l * s l - ∑ l, s l := by
    have h : ∀ l, (2 * p l - 1) * s l = 2 * (p l * s l) - s l := fun l => by ring
    simp only [h, Finset.sum_sub_distrib, ← Finset.mul_sum]
  rw [e1, e2]
  ring

/-- The direct form: ((0 + Σ (4p(1 − p) + e²)) + (Σ e·v)² − Σ e²·v²) / c² with e = 2p − 1 and v = w + (s − w),
    computed on the extended reals from real entries with s² = 1, is the layer's value: each summand of the first
    sum is 1, v is s, and v² is 1. -/
theorem direct_form {c : ℝ} (hc : c ≠ 0) (hcard : (Fintype.card ι : ℝ) = c) (p s w : ι → ℝ)
    (hs : ∀ l, s l * s l = 1)
    {P S W : ι → EReal} (hP : ∀ l, P l = ((p l : ℝ) : EReal)) (hS : ∀ l, S l = ((s l : ℝ) : EReal))
    (hW : ∀ l, W l = ((w l : ℝ) : EReal))
    {Z CC F1 F2 F4 : EReal} (hZ : Z = ((0 : ℝ) : EReal)) (hCC : CC = ((c * c : ℝ) : EReal))
    (h1 : F1 = ((1 : ℝ) : EReal)) (h2 : F2 = ((2 : ℝ) : EReal)) (h4 : F4 = ((4 : ℝ) : EReal)) :
    Ideal.div (((Z + ∑ l, ((F4 * P l) * (F1 - P l) + (F2 * P l - F1) * (F2 * P l - F1)))
        + (∑ l, (F2 * P l - F1) * (W l + (S l - W l))) * (∑ l, (F2 * P l - F1) * (W l + (S l - W l))))
        - ∑ l, ((F2 * P l - F1) * (F2 * P l - F1)) * ((W l + (S l - W l)) * (W l + (S l - W l)))) CC
      = ((value c p s : ℝ) : EReal) := by
  subst hZ hCC h1 h2 h4
  simp only [hP, hS, hW]
  rw [Ideal.div_coe (mul_ne_zero hc hc)]
  simp only [← EReal.coe_mul, ← EReal.coe_sub, ← EReal.coe_add, ← coe_sum]
  rw [EReal.coe_eq_coe_iff]
  unfold value
  have e1 : ∀ l, 4 * p l * (1 - p l) + (2 * p l - 1) * (2 * p l - 1) = 1 := fun l => by ring
  have e2 : ∀ l, (2 * p l - 1) * (w l + (s l - w l)) = (2 * p l - 1) * s l := fun l => by ring
  have e3 : ∀ l, (2 * p l - 1) * (2 * p l - 1) * ((w l + (s l - w l)) * (w l + (s l - w l))) = (2 * p l - 1) ^ 2 :=
    fun l => by rw [show w l + (s l - w l) = s l by ring, hs l]; ring
  simp only [e1, e2, e3, Finset.sum_const, Finset.card_univ, nsmul_eq_mul, mul_one, hcard]
  ring

end BinaryLayer

end
-- ==== Proof.Spec.lean ====
/-
  The function both programs compute: three binarized stochastic linear layers, 768 → 64 → 32 → 4, applied to each of
  the 65536 rows of x independently.

  A weight enters only through its sign, s = 1 where w ≥ 0 and −1 elsewhere. With finite activations each layer's
  value (BinaryLayer.value: (c − Σ(2p − 1)² + (Σ(2p − 1)·s)²) / c², c the layer's input width) is a real number, so the
  next layer again sees finite activations; the network is therefore stated on the reals, row by row, and G is its
  inclusion in the extended reals. The inputs are read through EReal.toReal, which is the identity on the finite
  entries the precondition provides.
-/
import Idealize.ShloMosaic.PureOps.Ideal.Laws
import Idealize.ShloMosaic.Lib.ValueIdx
import proofs.«130607_j20512763805724_2_alg».proof.Proof.LibBinaryLayer

noncomputable section

namespace BinaryNet

open Idealize.ShloMosaic Idealize.ShloMosaic.ValueIdx

/-! ## The float literals the two programs spell, as the reals they denote -/

theorem lit_zero : Ideal.ofBits .f32 0x00000000#32 = ((0 : ℝ) : EReal) := by
  simp [Ideal.ofBits, Ideal.ieee]
theorem lit_one : Ideal.ofBits .f32 0x3F800000#32 = ((1 : ℝ) : EReal) := by
  simp [Ideal.ofBits, Ideal.ieee, -EReal.coe_mul]; norm_num
theorem lit_neg_one : Ideal.ofBits .f32 0xBF800000#32 = ((-1 : ℝ) : EReal) := by
  simp [Ideal.ofBits, Ideal.ieee, -EReal.coe_mul]; norm_num
theorem lit_two : Ideal.ofBits .f32 0x40000000#32 = ((2 : ℝ) : EReal) := by
  simp [Ideal.ofBits, Ideal.ieee, -EReal.coe_mul]; norm_num
theorem lit_four : Ideal.ofBits .f32 0x40800000#32 = ((4 : ℝ) : EReal) := by
  simp [Ideal.ofBits, Ideal.ieee, -EReal.coe_mul]; norm_num
/-- 768, the first layer's input width. -/
theorem lit_768 : Ideal.ofBits .f32 0x44400000#32 = ((768 : ℝ) : EReal) := by
  simp [Ideal.ofBits, Ideal.ieee, -EReal.coe_mul]; norm_num
/-- 64, the second layer's input width. -/
theorem lit_64 : Ideal.ofBits .f32 0x42800000#32 = ((64 : ℝ) : EReal) := by
  simp [Ideal.ofBits, Ideal.ieee, -EReal.coe_mul]; norm_num
/-- 32, the third layer's input width. -/
theorem lit_32 : Ideal.ofBits .f32 0x42000000#32 = ((32 : ℝ) : EReal) := by
  simp [Ideal.ofBits, Ideal.ieee, -EReal.coe_mul]; norm_num
/-- 589824 = 768², the first layer's divisor. -/
theorem lit_768_sq : Ideal.ofBits .f32 0x49100000#32 = ((768 * 768 : ℝ) : EReal) := by
  simp [Ideal.ofBits, Ideal.ieee, -EReal.coe_mul]; norm_num
/-- 4096 = 64², the second layer's divisor. -/
theorem lit_64_sq : Ideal.ofBits .f32 0x45800000#32 = ((64 * 64 : ℝ) : EReal) := by
  simp [Ideal.ofBits, Ideal.ieee, -EReal.coe_mul]; norm_num
/-- 1024 = 32², the third layer's divisor. -/
theorem lit_32_sq : Ideal.ofBits .f32 0x44800000#32 = ((32 * 32 : ℝ) : EReal) := by
  simp [Ideal.ofBits, Ideal.ieee, -EReal.coe_mul]; norm_num

/-! ## The sign of a weight -/

/-- The binarized weight as both programs form it: 1.0 where the entry is at least 0.0, else −1.0. -/
def signE (a : EReal) : EReal :=
  Scalar.select (FloatOps.cmpf (F := Ideal) (φ := .f32) .oge a (FloatOps.ofBits (F := Ideal) .f32 0x00000000#32))
    (FloatOps.ofBits (F := Ideal) .f32 0x3F800000#32) (FloatOps.ofBits (F := Ideal) .f32 0xBF800000#32)

/-- The same sign as a real number. -/
def signR (a : EReal) : ℝ := if 0 ≤ a then 1 else -1

theorem signE_eq (a : EReal) : signE a = ((signR a : ℝ) : EReal) := by
  have hz : FloatOps.ofBits (F := Ideal) .f32 0x00000000#32 = (0 : EReal) := Ideal.ofBits_zero_f32
  unfold signE signR
  rw [Ideal.cmpf_def, hz]
  by_cases h : (0 : EReal) ≤ a
  · simp only [Ideal.cmp, h, decide_true, BitVec.ofBool_true, Scalar.select, if_true, Ideal.ofBits_def]
    exact lit_one
  · simp only [Ideal.cmp, h, decide_false, BitVec.ofBool_false, Scalar.select, Ideal.ofBits_def]
    exact lit_neg_one

/-- A sign squares to 1. -/
theorem signR_sq (a : EReal) : signR a * signR a = 1 := by
  unfold signR; split_ifs <;> norm_num

/-! ## The network on the reals, row by row -/

/-- A matrix of extended reals with n0 rows and n1 columns. -/
abbrev Mat (n0 n1 : Nat) : Type := FVec Ideal (⟨2, ![n0, n1]⟩ : Shape) .f32

/-- Row b of the first layer's output at unit o: the layer's value of row b of x against the signs of row o of w1. -/
def layer1 (x : Mat 65536 768) (w1 : Mat 64 768) (b : Fin 65536) (o : Fin 64) : ℝ :=
  BinaryLayer.value 768 (fun l : Fin 768 => (x (ix2 b l)).toReal) (fun l : Fin 768 => signR (w1 (ix2 o l)))

/-- The second layer, fed row b of the first layer's output. -/
def layer2 (x : Mat 65536 768) (w1 : Mat 64 768) (w2 : Mat 32 64) (b : Fin 65536) (o : Fin 32) : ℝ :=
  BinaryLayer.value 64 (fun l : Fin 64 => layer1 x w1 b l) (fun l : Fin 64 => signR (w2 (ix2 o l)))

/-- The third layer, fed row b of the second layer's output. -/
def layer3 (x : Mat 65536 768) (w1 : Mat 64 768) (w2 : Mat 32 64) (w3 : Mat 4 32) (b : Fin 65536) (o : Fin 4) : ℝ :=
  BinaryLayer.value 32 (fun l : Fin 32 => layer2 x w1 w2 b l) (fun l : Fin 32 => signR (w3 (ix2 o l)))

/-- The result array: entry (b, o) is the third layer's value for row b at unit o. -/
def G (x : Mat 65536 768) (w1 : Mat 64 768) (w2 : Mat 32 64) (w3 : Mat 4 32) : Mat 65536 4 :=
  fun i => ((layer3 x w1 w2 w3 ⟨(i 0).val, (i 0).isLt⟩ ⟨(i 1).val, (i 1).isLt⟩ : ℝ) : EReal)

theorem G_apply (x : Mat 65536 768) (w1 : Mat 64 768) (w2 : Mat 32 64) (w3 : Mat 4 32) (b : Fin 65536) (o : Fin 4) :
    G x w1 w2 w3 (ix2 b o) = ((layer3 x w1 w2 w3 b o : ℝ) : EReal) := rfl

/-- An array every entry of which is finite. -/
def Finite {s : Shape} (x : FVec Ideal s .f32) : Prop := ∀ i, x i = (((x i).toReal : ℝ) : EReal)

/-! The widths as the number of columns summed over, and nonzero. -/
theorem card_768 : (Fintype.card (Fin 768) : ℝ) = 768 := by simp
theorem card_64 : (Fintype.card (Fin 64) : ℝ) = 64 := by simp
theorem card_32 : (Fintype.card (Fin 32) : ℝ) = 32 := by simp

end BinaryNet

end
-- ==== Proof.RefValue.lean ====
/-
  The reference program read back as the specification.

  The reference is three binarized stochastic layers in sequence. For a row p of activations and a row w of weights,
  each layer forms e = 2p − 1 and d = 4p(1 − p), the binarized weight v = w + (s − w) with s the sign of w, and
  returns
      ((0 + Σ (d + e²)) + (Σ e·v)² − Σ e²·v²) / c²,        c the row length,
  the three sums running over the row. This is the direct arrangement of BinaryLayer.direct_form, so on finite
  entries each layer's entry is the real number BinaryLayer.value c p s included in the extended reals. Because that
  value is finite, the next layer again meets finite activations, and the three layers compose to the function G.
-/
import proofs.«130607_j20512763805724_2_alg».proof.Proof.ReadP
import proofs.«130607_j20512763805724_2_alg».proof.Proof.Spec

noncomputable section

namespace Cert.ReferenceIdeal.RefValue

open Idealize.ShloMosaic Idealize.ShloMosaic.ValueIdx Cert.ReferenceIdeal Cert.ReferenceIdeal.ReadP BinaryNet

/-- Entry (b, o) of the first layer. With p = row b of x and w = row o of w1, the program's term is the direct form
    with c = 768: each column index it builds is the pair (row, column), and the binarized weight is the select of
    1 and −1 on w ≥ 0. The direct-form law then gives the layer's value on the reals. -/
theorem layer1_apply (x : FVec Ideal S65536x768 .f32) (w1 : FVec Ideal S64x768 .f32)
    (hx : Finite x) (hw1 : Finite w1)
    (b : Fin 65536) (o : Fin 64) :
    val_main_v28 (F := Ideal) x w1 (ix2 b o) = ((layer1 x w1 b o : ℝ) : EReal) := by
  have hsum : ∀ k : Fin 768, idx_main_v17 (idx_main_v18 (idx_main_v24 (ix2 b o))) k = ix2 b k := fun k =>
    funext fun a => Fin.ext (by match a with | ⟨0, _⟩ => rfl | ⟨1, _⟩ => rfl)
  have hl1 : ∀ k : Fin 768, lidx_main_v19 (ix2 b o) k = ix2 b k := fun k =>
    funext fun a => Fin.ext (by match a with | ⟨0, _⟩ => rfl | ⟨1, _⟩ => rfl)
  have hr1 : ∀ k : Fin 768, ridx_main_v19 (ix2 b o) k = ix2 o k := fun k =>
    funext fun a => Fin.ext (by match a with | ⟨0, _⟩ => rfl | ⟨1, _⟩ => rfl)
  have hl2 : ∀ k : Fin 768, lidx_main_v22 (ix2 b o) k = ix2 b k := fun k =>
    funext fun a => Fin.ext (by match a with | ⟨0, _⟩ => rfl | ⟨1, _⟩ => rfl)
  have hr2 : ∀ k : Fin 768, ridx_main_v22 (ix2 b o) k = ix2 o k := fun k =>
    funext fun a => Fin.ext (by match a with | ⟨0, _⟩ => rfl | ⟨1, _⟩ => rfl)
  simp only [
    val_main_v28_apply, val_main_v27_apply, val_main_cst_7_apply, val_main_v26_apply, val_main_v25_apply,
    val_main_v24_apply, val_main_v18_apply, val_main_v17_apply, val_main_cst_6_apply, val_main_v16_apply,
    val_main_v14_apply, val_main_v15_apply, val_main_v11_apply, val_main_v10_apply, val_main_cst_4_apply,
    val_main_v13_apply, val_main_v12_apply, val_main_cst_5_apply, val_main_v9_apply, val_main_v7_apply,
    val_main_v6_apply, val_main_cst_2_apply, val_main_v8_apply, val_main_cst_3_apply, val_main_v23_apply,
    val_main_v19_apply, val_main_v22_apply, val_main_v20_apply, val_main_v21_apply, val_main_v5_apply,
    val_main_v4_apply, val_main_v3_apply, val_main_v2_apply, val_main_v1_apply, val_main_v0_apply,
    val_main_cst_apply, val_main_call0_v0_apply, val_main_call0_v1_apply, val_main_cst_0_apply,
    val_main_cst_1_apply,
    hsum, hl1, hr1, hl2, hr2,
    Ideal.hostDivf_def, Ideal.addf_def, Ideal.subf_def, Ideal.mulf_def, Ideal.ofBits_def]
  exact BinaryLayer.direct_form (c := 768) (by norm_num) card_768 (fun l => (x (ix2 b l)).toReal) (fun l => signR (w1 (ix2 o l)))
    (fun l => (w1 (ix2 o l)).toReal) (fun l => signR_sq _) (P := fun l => x (ix2 b l)) (S := fun l => signE (w1 (ix2 o l)))
    (W := fun l => w1 (ix2 o l)) (fun l => hx _) (fun l => signE_eq _) (fun l => hw1 _)
    lit_zero lit_768_sq lit_one lit_two lit_four

/-- Entry (b, o) of the second layer: the same direct form with c = 64, its activations row b of the first layer's
    output (real numbers by layer1_apply, kept as one term) and its weights row o of w2. -/
theorem layer2_apply (x : FVec Ideal S65536x768 .f32) (w1 : FVec Ideal S64x768 .f32)
    (w2 : FVec Ideal S32x64 .f32) (hx : Finite x) (hw1 : Finite w1) (hw2 : Finite w2)
    (b : Fin 65536) (o : Fin 32) :
    val_main_v57 (F := Ideal) x w1 w2 (ix2 b o) = ((layer2 x w1 w2 b o : ℝ) : EReal) := by
  have hsum : ∀ k : Fin 64, idx_main_v46 (idx_main_v47 (idx_main_v53 (ix2 b o))) k = ix2 b k := fun k =>
    funext fun a => Fin.ext (by match a with | ⟨0, _⟩ => rfl | ⟨1, _⟩ => rfl)
  have hl1 : ∀ k : Fin 64, lidx_main_v48 (ix2 b o) k = ix2 b k := fun k =>
    funext fun a => Fin.ext (by match a with | ⟨0, _⟩ => rfl | ⟨1, _⟩ => rfl)
  have hr1 : ∀ k : Fin 64, ridx_main_v48 (ix2 b o) k = ix2 o k := fun k =>
    funext fun a => Fin.ext (by match a with | ⟨0, _⟩ => rfl | ⟨1, _⟩ => rfl)
  have hl2 : ∀ k : Fin 64, lidx_main_v51 (ix2 b o) k = ix2 b k := fun k =>
    funext fun a => Fin.ext (by match a with | ⟨0, _⟩ => rfl | ⟨1, _⟩ => rfl)
  have hr2 : ∀ k : Fin 64, ridx_main_v51 (ix2 b o) k = ix2 o k := fun k =>
    funext fun a => Fin.ext (by match a with | ⟨0, _⟩ => rfl | ⟨1, _⟩ => rfl)
  simp only [
    val_main_v57_apply, val_main_v56_apply, val_main_cst_16_apply, val_main_v55_apply, val_main_v54_apply,
    val_main_v53_apply, val_main_v47_apply, val_main_v46_apply, val_main_cst_15_apply, val_main_v45_apply,
    val_main_v43_apply, val_main_v44_apply, val_main_v40_apply, val_main_v39_apply, val_main_cst_13_apply,
    val_main_v42_apply, val_main_v41_apply, val_main_cst_14_apply, val_main_v38_apply, val_main_v36_apply,
    val_main_v35_apply, val_main_cst_11_apply, val_main_v37_apply, val_main_cst_12_apply, val_main_v52_apply,
    val_main_v48_apply, val_main_v51_apply, val_main_v49_apply, val_main_v50_apply, val_main_v34_apply,
    val_main_v33_apply, val_main_v32_apply, val_main_v31_apply, val_main_v30_apply, val_main_v29_apply,
    val_main_cst_8_apply, val_main_call1_v0_apply, val_main_call1_v1_apply, val_main_cst_9_apply,
    val_main_cst_10_apply,
    hsum, hl1, hr1, hl2, hr2,
    Ideal.hostDivf_def, Ideal.addf_def, Ideal.subf_def, Ideal.mulf_def, Ideal.ofBits_def]
  exact BinaryLayer.direct_form (c := 64) (by norm_num) card_64 (fun l => layer1 x w1 b l) (fun l => signR (w2 (ix2 o l)))
    (fun l => (w2 (ix2 o l)).toReal) (fun l => signR_sq _) (P := fun l => val_main_v28 (F := Ideal) x w1 (ix2 b l)) (S := fun l => signE (w2 (ix2 o l)))
    (W := fun l => w2 (ix2 o l)) (fun l => layer1_apply x w1 hx hw1 b l) (fun l => signE_eq _) (fun l => hw2 _)
    lit_zero lit_64_sq lit_one lit_two lit_four

/-- Entry (b, o) of the third layer: the direct form with c = 32, its activations row b of the second layer's output
    (real numbers by layer2_apply) and its weights row o of w3. -/
theorem layer3_apply (x : FVec Ideal S65536x768 .f32) (w1 : FVec Ideal S64x768 .f32)
    (w2 : FVec Ideal S32x64 .f32) (w3 : FVec Ideal S4x32 .f32)
    (hx : Finite x) (hw1 : Finite w1) (hw2 : Finite w2) (hw3 : Finite w3)
    (b : Fin 65536) (o : Fin 4) :
    val_main_v86 (F := Ideal) x w1 w2 w3 (ix2 b o) = ((layer3 x w1 w2 w3 b o : ℝ) : EReal) := by
  have hsum : ∀ k : Fin 32, idx_main_v75 (idx_main_v76 (idx_main_v82 (ix2 b o))) k = ix2 b k := fun k =>
    funext fun a => Fin.ext (by match a with | ⟨0, _⟩ => rfl | ⟨1, _⟩ => rfl)
  have hl1 : ∀ k : Fin 32, lidx_main_v77 (ix2 b o) k = ix2 b k := fun k =>
    funext fun a => Fin.ext (by match a with | ⟨0, _⟩ => rfl | ⟨1, _⟩ => rfl)
  have hr1 : ∀ k : Fin 32, ridx_main_v77 (ix2 b o) k = ix2 o k := fun k =>
    funext fun a => Fin.ext (by match a with | ⟨0, _⟩ => rfl | ⟨1, _⟩ => rfl)
  have hl2 : ∀ k : Fin 32, lidx_main_v80 (ix2 b o) k = ix2 b k := fun k =>
    funext fun a => Fin.ext (by match a with | ⟨0, _⟩ => rfl | ⟨1, _⟩ => rfl)
  have hr2 : ∀ k : Fin 32, ridx_main_v80 (ix2 b o) k = ix2 o k := fun k =>
    funext fun a => Fin.ext (by match a with | ⟨0, _⟩ => rfl | ⟨1, _⟩ => rfl)
  simp only [
    val_main_v86_apply, val_main_v85_apply, val_main_cst_25_apply, val_main_v84_apply, val_main_v83_apply,
    val_main_v82_apply, val_main_v76_apply, val_main_v75_apply, val_main_cst_24_apply, val_main_v74_apply,
    val_main_v72_apply, val_main_v73_apply, val_main_v69_apply, val_main_v68_apply, val_main_cst_22_apply,
    val_main_v71_apply, val_main_v70_apply, val_main_cst_23_apply, val_main_v67_apply, val_main_v65_apply,
    val_main_v64_apply, val_main_cst_20_apply, val_main_v66_apply, val_main_cst_21_apply, val_main_v81_apply,
    val_main_v77_apply, val_main_v80_apply, val_main_v78_apply, val_main_v79_apply, val_main_v63_apply,
    val_main_v62_apply, val_main_v61_apply, val_main_v60_apply, val_main_v59_apply, val_main_v58_apply,
    val_main_cst_17_apply, val_main_call2_v0_apply, val_main_call2_v1_apply, val_main_cst_18_apply,
    val_main_cst_19_apply,
    hsum, hl1, hr1, hl2, hr2,
    Ideal.hostDivf_def, Ideal.addf_def, Ideal.subf_def, Ideal.mulf_def, Ideal.ofBits_def]
  exact BinaryLayer.direct_form (c := 32) (by norm_num) card_32 (fun l => layer2 x w1 w2 b l) (fun l => signR (w3 (ix2 o l)))
    (fun l => (w3 (ix2 o l)).toReal) (fun l => signR_sq _) (P := fun l => val_main_v57 (F := Ideal) x w1 w2 (ix2 b l)) (S := fun l => signE (w3 (ix2 o l)))
    (W := fun l => w3 (ix2 o l)) (fun l => layer2_apply x w1 w2 hx hw1 hw2 b l) (fun l => signE_eq _) (fun l => hw3 _)
    lit_zero lit_32_sq lit_one lit_two lit_four

/-- The reference's result is G: every index of the [65536, 4] result is a pair (b, o), where the third layer's entry
    is the specification's. -/
theorem reference_eq_G (x : FVec Ideal S65536x768 .f32) (w1 : FVec Ideal S64x768 .f32)
    (w2 : FVec Ideal S32x64 .f32) (w3 : FVec Ideal S4x32 .f32)
    (hx : Finite x) (hw1 : Finite w1) (hw2 : Finite w2) (hw3 : Finite w3) :
    val_main_v86 (F := Ideal) x w1 w2 w3 = G x w1 w2 w3 := by
  funext i
  obtain ⟨b, o, rfl⟩ : ∃ (b : Fin 65536) (o : Fin 4), i = ix2 b o := ⟨i 0, i 1, eq_ix2 i⟩
  rw [layer3_apply x w1 w2 w3 hx hw1 hw2 hw3 b o, G_apply]

end Cert.ReferenceIdeal.RefValue

end
-- ==== Proof.KernelProducts.lean ====
/-
  The kernel's three matrix products, read at an entry.

  Each layer multiplies a block of 2048 rows of activations by the layer's whole weight matrix, contracting the second
  axis of both (entry (r, o) pairs row r of the activations with row o of the weights), into an accumulator of zeros.
  On the extended reals that entry is the plain sum over the contracted coordinate of the products; the contraction
  index, a one-axis index set, is re-indexed by its one coordinate.
-/
import proofs.«130607_j20512763805724_2_alg».proof.Proof.Gen.KernelIdeal
import Idealize.ShloMosaic.Lib.ValueIdx
import Idealize.ShloMosaic.PureOps.Ideal.Laws

noncomputable section

namespace Cert.KernelIdeal.Products

open Idealize.ShloMosaic Idealize.ShloMosaic.ValueIdx Cert.KernelIdeal

/-- The first layer's product of a [2048, 768] block with a [64, 768] weight block, both contracted along their second
    axis, into the zero accumulator: entry (r, o) is the sum over k of a (r, k) · b (o, k). -/
theorem matmul1_apply {φ₁ φ₂ : FTy} (a : FVec Ideal S2048x768 φ₁) (b : FVec Ideal S64x768 φ₂) (r : Fin 2048) (o : Fin 64) :
    matmul dot_S2048x768_S64x768_S2048x64_1_1_0_0_n_n none a b (constant S2048x64 .f32 0x00000000#32) (ix2 r o)
      = ∑ k : Fin 768, a (ix2 r k) * b (ix2 o k) := by
  refine (Ideal.matmul_constant_zero_apply dot_S2048x768_S64x768_S2048x64_1_1_0_0_n_n none a b (ix2 r o)).trans ?_
  rw [← Equiv.sum_comp (contrEquiv1 dot_S2048x768_S64x768_S2048x64_1_1_0_0_n_n 768 rfl rfl).symm]
  refine Finset.sum_congr rfl fun k _ => ?_
  have hk := contrEquiv1_symm_val dot_S2048x768_S64x768_S2048x64_1_1_0_0_n_n 768 rfl rfl k
  have el : dot_S2048x768_S64x768_S2048x64_1_1_0_0_n_n.lhsIdx (ix2 r o) ((contrEquiv1 dot_S2048x768_S64x768_S2048x64_1_1_0_0_n_n 768 rfl rfl).symm k) = ix2 r k :=
    funext fun ax => Fin.ext (by
      match ax with
      | ⟨0, _⟩ =>
        show (dot_S2048x768_S64x768_S2048x64_1_1_0_0_n_n.lhsIdx (ix2 r o) _ 0).val = r.val
        unfold DotDims.lhsIdx
        rw [dif_neg (show ¬(0 : Fin S2048x768.rank) ∈ dot_S2048x768_S64x768_S2048x64_1_1_0_0_n_n.lhsBatch by decide),
          dif_pos (show (0 : Fin S2048x768.rank) ∈ dot_S2048x768_S64x768_S2048x64_1_1_0_0_n_n.lhsNonContracting by decide)]
        rfl
      | ⟨1, _⟩ => exact (dot_S2048x768_S64x768_S2048x64_1_1_0_0_n_n.lhsIdx_val_of_single rfl _ _).trans hk)
  have er : dot_S2048x768_S64x768_S2048x64_1_1_0_0_n_n.rhsIdx (ix2 r o) ((contrEquiv1 dot_S2048x768_S64x768_S2048x64_1_1_0_0_n_n 768 rfl rfl).symm k) = ix2 o k :=
    funext fun ax => Fin.ext (by
      match ax with
      | ⟨0, _⟩ =>
        show (dot_S2048x768_S64x768_S2048x64_1_1_0_0_n_n.rhsIdx (ix2 r o) _ 0).val = o.val
        unfold DotDims.rhsIdx
        rw [dif_neg (show ¬(0 : Fin S64x768.rank) ∈ dot_S2048x768_S64x768_S2048x64_1_1_0_0_n_n.rhsBatch by decide),
          dif_pos (show (0 : Fin S64x768.rank) ∈ dot_S2048x768_S64x768_S2048x64_1_1_0_0_n_n.rhsNonContracting by decide)]
        rfl
      | ⟨1, _⟩ => exact (dot_S2048x768_S64x768_S2048x64_1_1_0_0_n_n.rhsIdx_val_of_single rfl _ _).trans hk)
  rw [el, er]

/-- The second layer's product of a [2048, 64] block with a [32, 64] weight block, both contracted along their second
    axis, into the zero accumulator: entry (r, o) is the sum over k of a (r, k) · b (o, k). -/
theorem matmul2_apply {φ₁ φ₂ : FTy} (a : FVec Ideal S2048x64 φ₁) (b : FVec Ideal S32x64 φ₂) (r : Fin 2048) (o : Fin 32) :
    matmul dot_S2048x64_S32x64_S2048x32_1_1_0_0_n_n none a b (constant S2048x32 .f32 0x00000000#32) (ix2 r o)
      = ∑ k : Fin 64, a (ix2 r k) * b (ix2 o k) := by
  refine (Ideal.matmul_constant_zero_apply dot_S2048x64_S32x64_S2048x32_1_1_0_0_n_n none a b (ix2 r o)).trans ?_
  rw [← Equiv.sum_comp (contrEquiv1 dot_S2048x64_S32x64_S2048x32_1_1_0_0_n_n 64 rfl rfl).symm]
  refine Finset.sum_congr rfl fun k _ => ?_
  have hk := contrEquiv1_symm_val dot_S2048x64_S32x64_S2048x32_1_1_0_0_n_n 64 rfl rfl k
  have el : dot_S2048x64_S32x64_S2048x32_1_1_0_0_n_n.lhsIdx (ix2 r o) ((contrEquiv1 dot_S2048x64_S32x64_S2048x32_1_1_0_0_n_n 64 rfl rfl).symm k) = ix2 r k :=
    funext fun ax => Fin.ext (by
      match ax with
      | ⟨0, _⟩ =>
        show (dot_S2048x64_S32x64_S2048x32_1_1_0_0_n_n.lhsIdx (ix2 r o) _ 0).val = r.val
        unfold DotDims.lhsIdx
        rw [dif_neg (show ¬(0 : Fin S2048x64.rank) ∈ dot_S2048x64_S32x64_S2048x32_1_1_0_0_n_n.lhsBatch by decide),
          dif_pos (show (0 : Fin S2048x64.rank) ∈ dot_S2048x64_S32x64_S2048x32_1_1_0_0_n_n.lhsNonContracting by decide)]
        rfl
      | ⟨1, _⟩ => exact (dot_S2048x64_S32x64_S2048x32_1_1_0_0_n_n.lhsIdx_val_of_single rfl _ _).trans hk)
  have er : dot_S2048x64_S32x64_S2048x32_1_1_0_0_n_n.rhsIdx (ix2 r o) ((contrEquiv1 dot_S2048x64_S32x64_S2048x32_1_1_0_0_n_n 64 rfl rfl).symm k) = ix2 o k :=
    funext fun ax => Fin.ext (by
      match ax with
      | ⟨0, _⟩ =>
        show (dot_S2048x64_S32x64_S2048x32_1_1_0_0_n_n.rhsIdx (ix2 r o) _ 0).val = o.val
        unfold DotDims.rhsIdx
        rw [dif_neg (show ¬(0 : Fin S32x64.rank) ∈ dot_S2048x64_S32x64_S2048x32_1_1_0_0_n_n.rhsBatch by decide),
          dif_pos (show (0 : Fin S32x64.rank) ∈ dot_S2048x64_S32x64_S2048x32_1_1_0_0_n_n.rhsNonContracting by decide)]
        rfl
      | ⟨1, _⟩ => exact (dot_S2048x64_S32x64_S2048x32_1_1_0_0_n_n.rhsIdx_val_of_single rfl _ _).trans hk)
  rw [el, er]

/-- The third layer's product of a [2048, 32] block with a [4, 32] weight block, both contracted along their second
    axis, into the zero accumulator: entry (r, o) is the sum over k of a (r, k) · b (o, k). -/
theorem matmul3_apply {φ₁ φ₂ : FTy} (a : FVec Ideal S2048x32 φ₁) (b : FVec Ideal S4x32 φ₂) (r : Fin 2048) (o : Fin 4) :
    matmul dot_S2048x32_S4x32_S2048x4_1_1_0_0_n_n none a b (constant S2048x4 .f32 0x00000000#32) (ix2 r o)
      = ∑ k : Fin 32, a (ix2 r k) * b (ix2 o k) := by
  refine (Ideal.matmul_constant_zero_apply dot_S2048x32_S4x32_S2048x4_1_1_0_0_n_n none a b (ix2 r o)).trans ?_
  rw [← Equiv.sum_comp (contrEquiv1 dot_S2048x32_S4x32_S2048x4_1_1_0_0_n_n 32 rfl rfl).symm]
  refine Finset.sum_congr rfl fun k _ => ?_
  have hk := contrEquiv1_symm_val dot_S2048x32_S4x32_S2048x4_1_1_0_0_n_n 32 rfl rfl k
  have el : dot_S2048x32_S4x32_S2048x4_1_1_0_0_n_n.lhsIdx (ix2 r o) ((contrEquiv1 dot_S2048x32_S4x32_S2048x4_1_1_0_0_n_n 32 rfl rfl).symm k) = ix2 r k :=
    funext fun ax => Fin.ext (by
      match ax with
      | ⟨0, _⟩ =>
        show (dot_S2048x32_S4x32_S2048x4_1_1_0_0_n_n.lhsIdx (ix2 r o) _ 0).val = r.val
        unfold DotDims.lhsIdx
        rw [dif_neg (show ¬(0 : Fin S2048x32.rank) ∈ dot_S2048x32_S4x32_S2048x4_1_1_0_0_n_n.lhsBatch by decide),
          dif_pos (show (0 : Fin S2048x32.rank) ∈ dot_S2048x32_S4x32_S2048x4_1_1_0_0_n_n.lhsNonContracting by decide)]
        rfl
      | ⟨1, _⟩ => exact (dot_S2048x32_S4x32_S2048x4_1_1_0_0_n_n.lhsIdx_val_of_single rfl _ _).trans hk)
  have er : dot_S2048x32_S4x32_S2048x4_1_1_0_0_n_n.rhsIdx (ix2 r o) ((contrEquiv1 dot_S2048x32_S4x32_S2048x4_1_1_0_0_n_n 32 rfl rfl).symm k) = ix2 o k :=
    funext fun ax => Fin.ext (by
      match ax with
      | ⟨0, _⟩ =>
        show (dot_S2048x32_S4x32_S2048x4_1_1_0_0_n_n.rhsIdx (ix2 r o) _ 0).val = o.val
        unfold DotDims.rhsIdx
        rw [dif_neg (show ¬(0 : Fin S4x32.rank) ∈ dot_S2048x32_S4x32_S2048x4_1_1_0_0_n_n.rhsBatch by decide),
          dif_pos (show (0 : Fin S4x32.rank) ∈ dot_S2048x32_S4x32_S2048x4_1_1_0_0_n_n.rhsNonContracting by decide)]
        rfl
      | ⟨1, _⟩ => exact (dot_S2048x32_S4x32_S2048x4_1_1_0_0_n_n.rhsIdx_val_of_single rfl _ _).trans hk)
  rw [el, er]

end Cert.KernelIdeal.Products

end
-- ==== Proof.LibKeepdims.lean ====
/-
  Arrays with a kept unit axis, read at an index given by coordinates.

  A row reduction that keeps its axis (the sum over the columns of an [a, b] array, kept as an [a, 1] column) is three
  operations: the sum over the second axis into [a], a cast of [a] to [a, 1], and, where the column meets an [a, b]
  array again, its broadcast along the rows. Read at coordinates: the sum at row r is the sum over the columns k of the
  entry (r, k); the cast's entry (r, 0) is the vector's entry r; the broadcast's entry (r, c) is the column's entry (r, 0).
-/
import Idealize.ShloMosaic.Lib.ValueLayout
import Idealize.ShloMosaic.PureOps.Ideal.Laws

namespace Keepdims

open Idealize.ShloMosaic Idealize.ShloMosaic.ValueIdx

variable {α : Type}

/-- An [a] array cast to [a, 1] reads, at (i, u), the operand at i, whatever the unit coordinate u. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An [a, 1] column broadcast to [a, b] reads, at (p, c), the column's entry at row p. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- On the extended reals the sum of an [a, b] array over its second axis, read at row r, is the sum over the columns
    k of the entry (r, k). -/
theorem rowSum_apply {a b : ℕ} {φ : FTy} (v : FVec Ideal (⟨2, ![a, b]⟩ : Shape) φ) (acc : BitVec φ.bits)
    (h : (⟨2, ![a, b]⟩ : Shape).Reduces [1] ⟨1, ![a]⟩) (hφ : FKind.Formats φ) (hacc : acc = FKind.add.neutral φ hφ)
    (r : Fin a) :
    multiReduction .add [1] ⟨1, ![a]⟩ v acc h hφ hacc (ix1 r) = ∑ k : Fin b, v (ix2 r k) := by
  refine (Ideal.multiReduction_add_single v acc h hφ hacc (ix1 r)).trans ?_
  show ∑ k : Fin b, v (h.lift (ix1 r) k) = ∑ k : Fin b, v (ix2 r k)
  refine Finset.sum_congr rfl fun k _ => congrArg v (funext fun d => Fin.ext ?_)
  match d with
  | ⟨0, _⟩ => rfl
  | ⟨1, _⟩ => rfl

/-- The kept-axis row sum: the sum over the second axis cast to a column reads, at (r, 0), the sum over the columns k
    of the entry (r, k). -/
theorem rowSumKeep_apply {a b : ℕ} {φ : FTy} (v : FVec Ideal (⟨2, ![a, b]⟩ : Shape) φ) (acc : BitVec φ.bits)
    (h : (⟨2, ![a, b]⟩ : Shape).Reduces [1] ⟨1, ![a]⟩) (hφ : FKind.Formats φ) (hacc : acc = FKind.add.neutral φ hφ)
    (hc : (⟨1, ![a]⟩ : Shape).ShapeCasts ⟨2, ![a, 1]⟩) (r : Fin a) (u : Fin 1) :
    shapeCast ⟨2, ![a, 1]⟩ (multiReduction .add [1] ⟨1, ![a]⟩ v acc h hφ hacc) hc (ix2 r u) = ∑ k : Fin b, v (ix2 r k) :=
  (shapeCast_a_a1_apply _ hc r u).trans (rowSum_apply v acc h hφ hacc r)

end Keepdims
-- ==== Proof.KernelEntries.lean ====
/-
  The kernel body's values, read at an entry of the block.

  One grid point holds 2048 rows of x. The body runs the three layers on that block; each value below is one named
  intermediate of the body, read at row r and unit o of the block as an expression in the entries of its operands:
  a row sum kept as a column is the sum over the columns of that row, a product with the weights is the sum over the
  contracted coordinate, a row vector spread over the rows is its entry at the unit, and every other operation acts
  entry by entry. Nothing here uses finiteness: these are identities of extended reals.
-/
import proofs.«130607_j20512763805724_2_alg».proof.Proof.Gen.KernelIdeal.Skeleton
import proofs.«130607_j20512763805724_2_alg».proof.Proof.KernelProducts
import proofs.«130607_j20512763805724_2_alg».proof.Proof.LibKeepdims

noncomputable section

namespace Cert.KernelIdeal.Entries

open Idealize.ShloMosaic Idealize.ShloMosaic.ValueIdx Cert.KernelIdeal Cert.KernelIdeal.Gen

/-- The first layer's output at (r, o): with the block's row r as p and row o of the weights as s,
    (768 − ((4 Σ p² − 4 Σ p) + 768) + (2 Σ p·s − rowsum o)²) / 589824. -/
theorem pay2_entry (v0 : FVec Ideal S2048x768 .f32) (v1 : FVec Ideal S64x768 .bf16) (v3 : FVec Ideal S1x64 .f32)
    (r : Fin 2048) (o : Fin 64) :
    k0_pay2 (F := Ideal) v0 v1 v3 (ix2 r o)
      = Ideal.div ((Ideal.ofBits .f32 0x44400000#32 - ((Ideal.ofBits .f32 0x40800000#32 * ∑ k : Fin 768, v0 (ix2 r k) * v0 (ix2 r k)
              - Ideal.ofBits .f32 0x40800000#32 * ∑ k : Fin 768, v0 (ix2 r k)) + Ideal.ofBits .f32 0x44400000#32))
          + (Ideal.ofBits .f32 0x40000000#32 * ∑ k : Fin 768, v0 (ix2 r k) * v1 (ix2 o k) - v3 (ix2 (0 : Fin 1) o))
            * (Ideal.ofBits .f32 0x40000000#32 * ∑ k : Fin 768, v0 (ix2 r k) * v1 (ix2 o k) - v3 (ix2 (0 : Fin 1) o)))
        (Ideal.ofBits .f32 0x49100000#32) := by
  have hpp := Keepdims.rowSumKeep_apply (mulf v0 v0) 0x00000000#32 reduces_S2048x768_S2048 (.inl rfl) rfl
    shapeCasts_S2048_S2048x1 r 0
  have hp := Keepdims.rowSumKeep_apply v0 0x00000000#32 reduces_S2048x768_S2048 (.inl rfl) rfl
    shapeCasts_S2048_S2048x1 r 0
  have hmm := Products.matmul1_apply (φ₁ := .bf16) (φ₂ := .bf16) (truncf .bf16 v0 bitsLt_bf16_f32) (shapeCast S64x768 v1 shapeCasts_S64x768_S64x768) r o
  unfold k0_pay2
  simp only [divf_apply, addf_apply, subf_apply, mulf_apply, broadcast_apply, Keepdims.broadcastTo_a1_ab_apply,
    broadcastTo_1b_ab_apply, shapeCast_self, truncf_apply] at hpp hp hmm ⊢
  rw [hpp, hp, hmm]
  rfl

/-- The second layer's row of weight sums, kept as loaded. -/
theorem pay3_entry (v32 : FVec Ideal S1x32 .f32) (i : S1x32.Idx) : k0_pay3 (F := Ideal) v32 i = v32 i := by
  unfold k0_pay3
  rw [shapeCast_self]

/-- Twice the second layer's product at (r, o): 2 Σ_k h1 (r, k) · w2 (o, k), h1 the first layer's output. -/
theorem pay4_entry (v0 : FVec Ideal S2048x768 .f32) (v1 : FVec Ideal S64x768 .bf16) (v3 : FVec Ideal S1x64 .f32)
    (v30 : FVec Ideal S32x64 .bf16) (r : Fin 2048) (o : Fin 32) :
    k0_pay4 (F := Ideal) v0 v1 v3 v30 (ix2 r o)
      = Ideal.ofBits .f32 0x40000000#32 * ∑ k : Fin 64, k0_pay2 (F := Ideal) v0 v1 v3 (ix2 r k) * v30 (ix2 o k) := by
  have hmm := Products.matmul2_apply (φ₁ := .bf16) (φ₂ := .bf16) (truncf .bf16 (k0_pay2 (F := Ideal) v0 v1 v3) bitsLt_bf16_f32)
    (shapeCast S32x64 v30 shapeCasts_S32x64_S32x64) r o
  unfold k0_pay4
  simp only [mulf_apply, broadcast_apply, shapeCast_self, truncf_apply] at hmm ⊢
  rw [hmm]
  rfl

/-- The second layer's output at (r, o) from the first layer's output v29, the row of weight sums v33 and twice the
    product v37: (64 − ((4 Σ v29² − 4 Σ v29) + 64) + (v37 (r, o) − v33 (0, o))²) / 4096, the sums over row r of v29. -/
theorem pay5_entry (v29 : FVec Ideal S2048x64 .f32) (v33 : FVec Ideal S1x32 .f32) (v37 : FVec Ideal S2048x32 .f32)
    (r : Fin 2048) (o : Fin 32) :
    k0_pay5 (F := Ideal) v29 v33 v37 (ix2 r o)
      = Ideal.div ((Ideal.ofBits .f32 0x42800000#32 - ((Ideal.ofBits .f32 0x40800000#32 * ∑ k : Fin 64, v29 (ix2 r k) * v29 (ix2 r k)
              - Ideal.ofBits .f32 0x40800000#32 * ∑ k : Fin 64, v29 (ix2 r k)) + Ideal.ofBits .f32 0x42800000#32))
          + (v37 (ix2 r o) - v33 (ix2 (0 : Fin 1) o)) * (v37 (ix2 r o) - v33 (ix2 (0 : Fin 1) o)))
        (Ideal.ofBits .f32 0x45800000#32) := by
  have hpp := Keepdims.rowSumKeep_apply (mulf v29 v29) 0x00000000#32 reduces_S2048x64_S2048 (.inl rfl) rfl
    shapeCasts_S2048_S2048x1 r 0
  have hp := Keepdims.rowSumKeep_apply v29 0x00000000#32 reduces_S2048x64_S2048 (.inl rfl) rfl
    shapeCasts_S2048_S2048x1 r 0
  unfold k0_pay5
  simp only [divf_apply, addf_apply, subf_apply, mulf_apply, broadcast_apply, Keepdims.broadcastTo_a1_ab_apply,
    broadcastTo_1b_ab_apply] at hpp hp ⊢
  rw [hpp, hp]
  rfl

/-- Twice the third layer's product less the weight sums, at (r, o): 2 Σ_k h2 (r, k) · w3 (o, k) − rowsum o,
    h2 the second layer's output. -/
theorem pay6_entry (v29 : FVec Ideal S2048x64 .f32) (v33 : FVec Ideal S1x32 .f32) (v37 : FVec Ideal S2048x32 .f32)
    (v59 : FVec Ideal S4x32 .bf16) (v61 : FVec Ideal S1x4 .f32) (r : Fin 2048) (o : Fin 4) :
    k0_pay6 (F := Ideal) v29 v33 v37 v59 v61 (ix2 r o)
      = Ideal.ofBits .f32 0x40000000#32 * ∑ k : Fin 32, k0_pay5 (F := Ideal) v29 v33 v37 (ix2 r k) * v59 (ix2 o k) - v61 (ix2 (0 : Fin 1) o) := by
  have hmm := Products.matmul3_apply (φ₁ := .bf16) (φ₂ := .bf16) (truncf .bf16 (k0_pay5 (F := Ideal) v29 v33 v37) bitsLt_bf16_f32)
    (shapeCast S4x32 v59 shapeCasts_S4x32_S4x32) r o
  unfold k0_pay6
  simp only [subf_apply, mulf_apply, broadcast_apply, broadcastTo_1b_ab_apply, shapeCast_self, truncf_apply] at hmm ⊢
  rw [hmm]
  rfl

/-- The third layer's 4 Σ h2² − 4 Σ h2 over row r, kept as a column. -/
theorem pay7_entry (v29 : FVec Ideal S2048x64 .f32) (v33 : FVec Ideal S1x32 .f32) (v37 : FVec Ideal S2048x32 .f32)
    (r : Fin 2048) :
    k0_pay7 (F := Ideal) v29 v33 v37 (ix2 r (0 : Fin 1))
      = Ideal.ofBits .f32 0x40800000#32 * ∑ k : Fin 32, k0_pay5 (F := Ideal) v29 v33 v37 (ix2 r k) * k0_pay5 (F := Ideal) v29 v33 v37 (ix2 r k)
        - Ideal.ofBits .f32 0x40800000#32 * ∑ k : Fin 32, k0_pay5 (F := Ideal) v29 v33 v37 (ix2 r k) := by
  have hpp := Keepdims.rowSumKeep_apply (mulf (k0_pay5 (F := Ideal) v29 v33 v37) (k0_pay5 (F := Ideal) v29 v33 v37)) 0x00000000#32
    reduces_S2048x32_S2048 (.inl rfl) rfl shapeCasts_S2048_S2048x1 r 0
  have hp := Keepdims.rowSumKeep_apply (k0_pay5 (F := Ideal) v29 v33 v37) 0x00000000#32 reduces_S2048x32_S2048 (.inl rfl) rfl
    shapeCasts_S2048_S2048x1 r 0
  unfold k0_pay7
  simp only [subf_apply, mulf_apply, broadcast_apply] at hpp hp ⊢
  rw [hpp, hp]
  rfl

/-- The third layer's width, 32, in every row of a column. -/
theorem pay8_entry (i : S2048x1.Idx) : k0_pay8 (F := Ideal) i = Ideal.ofBits .f32 0x42000000#32 := rfl

/-- The stored value at (r, o) from the third layer's pieces: (32 − (v78 (r, 0) + v79 (r, 0)) + v68 (r, o)²) / 1024. -/
theorem pay1_entry (v68 : FVec Ideal S2048x4 .f32) (v78 v79 : FVec Ideal S2048x1 .f32) (r : Fin 2048) (o : Fin 4) :
    k0_pay1 (F := Ideal) v68 v78 v79 (ix2 r o)
      = Ideal.div ((Ideal.ofBits .f32 0x42000000#32 - (v78 (ix2 r (0 : Fin 1)) + v79 (ix2 r (0 : Fin 1))))
          + v68 (ix2 r o) * v68 (ix2 r o)) (Ideal.ofBits .f32 0x44800000#32) := by
  unfold k0_pay1
  simp only [divf_apply, addf_apply, subf_apply, mulf_apply, broadcast_apply, Keepdims.broadcastTo_a1_ab_apply]
  rfl

end Cert.KernelIdeal.Entries

end
-- ==== Proof.KernelBlock.lean ====
/-
  What one grid point stores, as the network's value on real data.

  Suppose row r of the point's block of x consists of the real numbers p, each weight block consists of real numbers
  s1, s2, s3 (the signs), and each row of weight sums holds the sum of the corresponding row of signs. Then the first
  layer's output along row r is the real vector value 768 p (s1 ·) — the rearranged form of the layer, which needs
  real entries to distribute the products over the sums —, so the second layer again sees real activations, and
  likewise the third: the stored entry (r, o) is the three-fold composition of BinaryLayer.value.
-/
import proofs.«130607_j20512763805724_2_alg».proof.Proof.KernelEntries
import proofs.«130607_j20512763805724_2_alg».proof.Proof.Spec

noncomputable section

namespace Cert.KernelIdeal.Block

open Idealize.ShloMosaic Idealize.ShloMosaic.ValueIdx Cert.KernelIdeal Cert.KernelIdeal.Gen Cert.KernelIdeal.Entries
open BinaryNet BinaryLayer

/-- The stored entry (r, o) of a grid point whose operand blocks are real-valued as described above. -/
theorem stored_entry (X : FVec Ideal S2048x768 .f32) (W1 : FVec Ideal S64x768 .bf16) (R1 : FVec Ideal S1x64 .f32)
    (W2 : FVec Ideal S32x64 .bf16) (R2 : FVec Ideal S1x32 .f32) (W3 : FVec Ideal S4x32 .bf16) (R3 : FVec Ideal S1x4 .f32)
    (r : Fin 2048) (o : Fin 4) (p : Fin 768 → ℝ) (s1 : Fin 64 → Fin 768 → ℝ) (s2 : Fin 32 → Fin 64 → ℝ)
    (s3 : Fin 4 → Fin 32 → ℝ)
    (hX : ∀ k, X (ix2 r k) = ((p k : ℝ) : EReal))
    (hW1 : ∀ j k, W1 (ix2 j k) = ((s1 j k : ℝ) : EReal))
    (hR1 : ∀ j, R1 (ix2 (0 : Fin 1) j) = ((∑ k, s1 j k : ℝ) : EReal))
    (hW2 : ∀ j k, W2 (ix2 j k) = ((s2 j k : ℝ) : EReal))
    (hR2 : ∀ j, R2 (ix2 (0 : Fin 1) j) = ((∑ k, s2 j k : ℝ) : EReal))
    (hW3 : ∀ j k, W3 (ix2 j k) = ((s3 j k : ℝ) : EReal))
    (hR3 : ∀ j, R3 (ix2 (0 : Fin 1) j) = ((∑ k, s3 j k : ℝ) : EReal)) :
    k0_pay1 (F := Ideal) (k0_pay6 (F := Ideal) (k0_pay2 (F := Ideal) X W1 R1) (k0_pay3 (F := Ideal) R2) (k0_pay4 (F := Ideal) X W1 R1 W2) W3 R3)
        (k0_pay7 (F := Ideal) (k0_pay2 (F := Ideal) X W1 R1) (k0_pay3 (F := Ideal) R2) (k0_pay4 (F := Ideal) X W1 R1 W2)) (k0_pay8 (F := Ideal)) (ix2 r o)
      = ((value 32 (fun l : Fin 32 => value 64 (fun l' : Fin 64 => value 768 p (s1 l')) (s2 l)) (s3 o) : ℝ) : EReal) := by
  have h1 : ∀ j : Fin 64, k0_pay2 (F := Ideal) X W1 R1 (ix2 r j) = ((value 768 p (s1 j) : ℝ) : EReal) := fun j => by
    rw [pay2_entry]
    exact rearranged_form (c := 768) (by norm_num) card_768 p (s1 j) (P := fun k => X (ix2 r k))
      (S := fun k => W1 (ix2 j k)) hX (hW1 j) lit_768 lit_768_sq lit_two lit_four (hR1 j)
  have h2 : ∀ j : Fin 32, k0_pay5 (F := Ideal) (k0_pay2 (F := Ideal) X W1 R1) (k0_pay3 (F := Ideal) R2) (k0_pay4 (F := Ideal) X W1 R1 W2) (ix2 r j)
      = ((value 64 (fun l' : Fin 64 => value 768 p (s1 l')) (s2 j) : ℝ) : EReal) := fun j => by
    rw [pay5_entry, pay4_entry, pay3_entry]
    exact rearranged_form (c := 64) (by norm_num) card_64 (fun l' : Fin 64 => value 768 p (s1 l')) (s2 j)
      (P := fun k => k0_pay2 (F := Ideal) X W1 R1 (ix2 r k)) (S := fun k => W2 (ix2 j k)) h1 (hW2 j) lit_64 lit_64_sq lit_two lit_four
      (hR2 j)
  rw [pay1_entry, pay6_entry, pay7_entry, pay8_entry]
  exact rearranged_form (c := 32) (by norm_num) card_32
    (fun l : Fin 32 => value 64 (fun l' : Fin 64 => value 768 p (s1 l')) (s2 l)) (s3 o)
    (P := fun k => k0_pay5 (F := Ideal) (k0_pay2 (F := Ideal) X W1 R1) (k0_pay3 (F := Ideal) R2) (k0_pay4 (F := Ideal) X W1 R1 W2) (ix2 r k)) (S := fun k => W3 (ix2 o k))
    h2 (hW3 o) lit_32 lit_32_sq lit_two lit_four (hR3 o)

end Cert.KernelIdeal.Block

end
-- ==== Proof.KernelWindows.lean ====
/-
  What the kernel's region finds in the six weight windows.

  Before the region the host prepares each weight matrix w three ways: the sign array s (1 where w ≥ 0, else −1), the
  same array in a narrower float format (the identity on extended reals), and the row sums Σ_k s(o, k) laid out as a
  single row. Read at an entry, the first two are the sign of that entry of w; the third, being a finite sum of ±1, is
  the inclusion of the real row sum.
-/
import proofs.«130607_j20512763805724_2_alg».proof.Proof.Gen.KernelIdeal.Frame
import Idealize.ShloMosaic.Lib.StableHlo.Run
import Idealize.ShloMosaic.Lib.ValueLayout
import Idealize.ShloMosaic.PureOps.Ideal.Laws
import proofs.«130607_j20512763805724_2_alg».proof.Proof.Spec

noncomputable section

namespace Cert.KernelIdeal.Windows

open Idealize.ShloMosaic Idealize.ShloMosaic.ValueIdx Idealize.ShloMosaic.TcCoe Idealize.SL.Sem
  Idealize.ShloMosaic.StableHlo Cert.KernelIdeal Cert.KernelIdeal.Gen BinaryNet

variable (m : (ℓ : Loc nD τ sig) → Buf (Elt Ideal) ℓ) (c : Dev nD)

/-- The sign array of w as the host builds it: the select of the constants 1 and −1 on w ≥ 0, each constant a scalar
    spread over the shape. -/
def signs {s : Shape} (hb : S_.BroadcastsInDim s (![] : Fin 0 → Fin s.rank)) (w : FVec Ideal s .f32) : FVec Ideal s .f32 :=
  select (cmpf .oge w (broadcastInDim s ![] hb (constant (F := Ideal) S_ .f32 0x00000000#32)))
    (broadcastInDim s ![] hb (constant (F := Ideal) S_ .f32 0x3F800000#32))
    (broadcastInDim s ![] hb (constant (F := Ideal) S_ .f32 0xBF800000#32))

/-- An entry of the sign array is the sign of that entry. -/
theorem signs_apply {s : Shape} (hb : S_.BroadcastsInDim s (![] : Fin 0 → Fin s.rank)) (w : FVec Ideal s .f32) (i : s.Idx) :
    signs hb w i = signE (w i) := rfl

/-- A sum of signs, computed on the extended reals from 0, is the inclusion of the real sum. -/
theorem zero_add_sum_signE {n : ℕ} (f : Fin n → EReal) :
    Ideal.ofBits .f32 0x00000000#32 + ∑ k : Fin n, signE (f k) = ((∑ k : Fin n, signR (f k) : ℝ) : EReal) := by
  rw [Ideal.ofBits_zero_f32, zero_add, BinaryLayer.coe_sum]
  exact Finset.sum_congr rfl fun k _ => signE_eq (f k)

/-! ## The first weight matrix, [64, 768] -/

/-- The narrowed sign array at region entry, as an array. -/
theorem V_main_v4 : (V m c main_v4 : FVec Ideal S64x768 .bf16)
    = truncf .bf16 (id (signs bcast_S_S64x768 (m ((c : Thread nD τ).loc main_arg1) : FVec Ideal S64x768 .f32))) bitsLt_bf16_f32 := by
  dsimp only [V]
  simp only [hostOps0, hostOps0_1, hostOps0_2, hostOps0_3, hostOps0_4, hostOps0_5, hostOps0_6, List.flatten_cons,
    List.flatten_nil, List.append_nil, List.cons_append, List.nil_append]
  after_results
  rfl

/-- The row sums at region entry, as an array: the sum along the second axis from 0, laid out as one row. -/
theorem V_main_v6 : (V m c main_v6 : FVec Ideal S1x64 .f32)
    = shapeCast S1x64 (Host.reduceAdd (F := Ideal) (id (signs bcast_S_S64x768 (m ((c : Thread nD τ).loc main_arg1) : FVec Ideal S64x768 .f32)))
        (constant (F := Ideal) S_ .f32 0x00000000#32) reducesTo_S64x768_S64_d1 h_S_) shapeCasts_S64_S1x64 := by
  dsimp only [V]
  simp only [hostOps0, hostOps0_1, hostOps0_2, hostOps0_3, hostOps0_4, hostOps0_5, hostOps0_6, List.flatten_cons,
    List.flatten_nil, List.append_nil, List.cons_append, List.nil_append]
  after_results
  rfl

/-- The sum along the second axis of a [64, 768] array, at row o: the initial value plus the sum over the row. -/
theorem rowsum1_apply (y : FVec Ideal S64x768 .f32) (z : FVec Ideal S_ .f32) (o : Fin 64) :
    Host.reduceAdd (F := Ideal) y z reducesTo_S64x768_S64_d1 h_S_ (ix1 o) = z (Shape.Idx.first h_S_) + ∑ k : Fin 768, y (ix2 o k) := by
  simp only [Host.reduceAdd, Ideal.hostReduceAdd_def]
  rw [Ideal.hostReduceAdd_single reducesTo_S64x768_S64_d1 (by decide)]
  refine congrArg (_ + ·) (Finset.sum_congr rfl fun k _ => ?_)
  exact congrArg y (funext fun a => Fin.ext (by match a with | ⟨0, _⟩ => rfl | ⟨1, _⟩ => rfl))

/-! ## The second weight matrix, [32, 64] -/

/-- The narrowed sign array at region entry, as an array. -/
theorem V_main_v11 : (V m c main_v11 : FVec Ideal S32x64 .bf16)
    = truncf .bf16 (id (signs bcast_S_S32x64 (m ((c : Thread nD τ).loc main_arg2) : FVec Ideal S32x64 .f32))) bitsLt_bf16_f32 := by
  dsimp only [V]
  simp only [hostOps0, hostOps0_1, hostOps0_2, hostOps0_3, hostOps0_4, hostOps0_5, hostOps0_6, List.flatten_cons,
    List.flatten_nil, List.append_nil, List.cons_append, List.nil_append]
  after_results
  rfl

/-- The row sums at region entry, as an array: the sum along the second axis from 0, laid out as one row. -/
theorem V_main_v13 : (V m c main_v13 : FVec Ideal S1x32 .f32)
    = shapeCast S1x32 (Host.reduceAdd (F := Ideal) (id (signs bcast_S_S32x64 (m ((c : Thread nD τ).loc main_arg2) : FVec Ideal S32x64 .f32)))
        (constant (F := Ideal) S_ .f32 0x00000000#32) reducesTo_S32x64_S32_d1 h_S_) shapeCasts_S32_S1x32 := by
  dsimp only [V]
  simp only [hostOps0, hostOps0_1, hostOps0_2, hostOps0_3, hostOps0_4, hostOps0_5, hostOps0_6, List.flatten_cons,
    List.flatten_nil, List.append_nil, List.cons_append, List.nil_append]
  after_results
  rfl

/-- The sum along the second axis of a [32, 64] array, at row o: the initial value plus the sum over the row. -/
theorem rowsum2_apply (y : FVec Ideal S32x64 .f32) (z : FVec Ideal S_ .f32) (o : Fin 32) :
    Host.reduceAdd (F := Ideal) y z reducesTo_S32x64_S32_d1 h_S_ (ix1 o) = z (Shape.Idx.first h_S_) + ∑ k : Fin 64, y (ix2 o k) := by
  simp only [Host.reduceAdd, Ideal.hostReduceAdd_def]
  rw [Ideal.hostReduceAdd_single reducesTo_S32x64_S32_d1 (by decide)]
  refine congrArg (_ + ·) (Finset.sum_congr rfl fun k _ => ?_)
  exact congrArg y (funext fun a => Fin.ext (by match a with | ⟨0, _⟩ => rfl | ⟨1, _⟩ => rfl))

/-! ## The third weight matrix, [4, 32] -/

/-- The narrowed sign array at region entry, as an array. -/
theorem V_main_v18 : (V m c main_v18 : FVec Ideal S4x32 .bf16)
    = truncf .bf16 (id (signs bcast_S_S4x32 (m ((c : Thread nD τ).loc main_arg3) : FVec Ideal S4x32 .f32))) bitsLt_bf16_f32 := by
  dsimp only [V]
  simp only [hostOps0, hostOps0_1, hostOps0_2, hostOps0_3, hostOps0_4, hostOps0_5, hostOps0_6, List.flatten_cons,
    List.flatten_nil, List.append_nil, List.cons_append, List.nil_append]
  after_results
  rfl

/-- The row sums at region entry, as an array: the sum along the second axis from 0, laid out as one row. -/
theorem V_main_v20 : (V m c main_v20 : FVec Ideal S1x4 .f32)
    = shapeCast S1x4 (Host.reduceAdd (F := Ideal) (id (signs bcast_S_S4x32 (m ((c : Thread nD τ).loc main_arg3) : FVec Ideal S4x32 .f32)))
        (constant (F := Ideal) S_ .f32 0x00000000#32) reducesTo_S4x32_S4_d1 h_S_) shapeCasts_S4_S1x4 := by
  dsimp only [V]
  simp only [hostOps0, hostOps0_1, hostOps0_2, hostOps0_3, hostOps0_4, hostOps0_5, hostOps0_6, List.flatten_cons,
    List.flatten_nil, List.append_nil, List.cons_append, List.nil_append]
  after_results
  rfl

/-- The sum along the second axis of a [4, 32] array, at row o: the initial value plus the sum over the row. -/
theorem rowsum3_apply (y : FVec Ideal S4x32 .f32) (z : FVec Ideal S_ .f32) (o : Fin 4) :
    Host.reduceAdd (F := Ideal) y z reducesTo_S4x32_S4_d1 h_S_ (ix1 o) = z (Shape.Idx.first h_S_) + ∑ k : Fin 32, y (ix2 o k) := by
  simp only [Host.reduceAdd, Ideal.hostReduceAdd_def]
  rw [Ideal.hostReduceAdd_single reducesTo_S4x32_S4_d1 (by decide)]
  refine congrArg (_ + ·) (Finset.sum_congr rfl fun k _ => ?_)
  exact congrArg y (funext fun a => Fin.ext (by match a with | ⟨0, _⟩ => rfl | ⟨1, _⟩ => rfl))

/-! ## The six windows read at an entry -/

/-- Window 1: entry (o, k) is the sign of w(o, k). -/
theorem weights1 (o : Fin 64) (k : Fin 768) :
    (V m c main_v4 : FVec Ideal S64x768 .bf16) (ix2 o k) = signE ((m ((c : Thread nD τ).loc main_arg1) : FVec Ideal S64x768 .f32) (ix2 o k)) := by
  rw [V_main_v4 m c]
  rfl

/-- Window 2: entry (0, o) is the real number Σ_k sign w(o, k). -/
theorem rowsums1 (o : Fin 64) :
    (V m c main_v6 : FVec Ideal S1x64 .f32) (ix2 (0 : Fin 1) o)
      = ((∑ k : Fin 768, signR ((m ((c : Thread nD τ).loc main_arg1) : FVec Ideal S64x768 .f32) (ix2 o k)) : ℝ) : EReal) := by
  rw [V_main_v6 m c, shapeCast_a_1a_apply, rowsum1_apply]
  exact zero_add_sum_signE fun k => (m ((c : Thread nD τ).loc main_arg1) : FVec Ideal S64x768 .f32) (ix2 o k)

/-- Window 3: entry (o, k) is the sign of w(o, k). -/
theorem weights2 (o : Fin 32) (k : Fin 64) :
    (V m c main_v11 : FVec Ideal S32x64 .bf16) (ix2 o k) = signE ((m ((c : Thread nD τ).loc main_arg2) : FVec Ideal S32x64 .f32) (ix2 o k)) := by
  rw [V_main_v11 m c]
  rfl

/-- Window 4: entry (0, o) is the real number Σ_k sign w(o, k). -/
theorem rowsums2 (o : Fin 32) :
    (V m c main_v13 : FVec Ideal S1x32 .f32) (ix2 (0 : Fin 1) o)
      = ((∑ k : Fin 64, signR ((m ((c : Thread nD τ).loc main_arg2) : FVec Ideal S32x64 .f32) (ix2 o k)) : ℝ) : EReal) := by
  rw [V_main_v13 m c, shapeCast_a_1a_apply, rowsum2_apply]
  exact zero_add_sum_signE fun k => (m ((c : Thread nD τ).loc main_arg2) : FVec Ideal S32x64 .f32) (ix2 o k)

/-- Window 5: entry (o, k) is the sign of w(o, k). -/
theorem weights3 (o : Fin 4) (k : Fin 32) :
    (V m c main_v18 : FVec Ideal S4x32 .bf16) (ix2 o k) = signE ((m ((c : Thread nD τ).loc main_arg3) : FVec Ideal S4x32 .f32) (ix2 o k)) := by
  rw [V_main_v18 m c]
  rfl

/-- Window 6: entry (0, o) is the real number Σ_k sign w(o, k). -/
theorem rowsums3 (o : Fin 4) :
    (V m c main_v20 : FVec Ideal S1x4 .f32) (ix2 (0 : Fin 1) o)
      = ((∑ k : Fin 32, signR ((m ((c : Thread nD τ).loc main_arg3) : FVec Ideal S4x32 .f32) (ix2 o k)) : ℝ) : EReal) := by
  rw [V_main_v20 m c, shapeCast_a_1a_apply, rowsum3_apply]
  exact zero_add_sum_signE fun k => (m ((c : Thread nD τ).loc main_arg3) : FVec Ideal S4x32 .f32) (ix2 o k)

end Cert.KernelIdeal.Windows

end
-- ==== Proof.KernelValue.lean ====
/-
  From what each grid point stores to the whole result array.

  The grid has 32 points. Point t stages rows 2048 t … 2048 t + 2047 of x and every weight array whole, and writes
  rows 2048 t … 2048 t + 2047 of the result. Each row of the result depends on the same row of x only, so the block a
  point writes is that block of ONE array, G of the four arguments; the 32 blocks tile the 65536 rows, hence the array
  the run leaves is G.
-/
import proofs.«130607_j20512763805724_2_alg».proof.Proof.Gen.KernelIdeal.Value
import proofs.«130607_j20512763805724_2_alg».proof.Proof.KernelBlock
import proofs.«130607_j20512763805724_2_alg».proof.Proof.KernelWindows
import proofs.«130607_j20512763805724_2_alg».proof.Proof.Spec

noncomputable section

namespace Cert.KernelIdeal.Result

open Idealize.ShloMosaic Idealize.ShloMosaic.ValueIdx Idealize.ShloMosaic.TcCoe Idealize.SL.Sem
open Idealize.ShloMosaic.Pipeline (Dat)
open Cert.KernelIdeal Cert.KernelIdeal.Gen BinaryNet

variable (m : (ℓ : Loc nD τ sig) → Buf (Elt Ideal) ℓ) (ρ : Dev nD → PrngReg)

theorem hz : (![0, 0] : Fin 2 → Nat) = fun _ => 0 := funext fun a => by fin_cases a <;> rfl

/-- The printed index maps, decided over the 32 grid points: the block of x and the block of the result at point t
    are block (t, 0); every weight window's is block (0, 0). -/
theorem idx_facts : ∀ t : Fin cfg0.N,
    win0_0.index t (0 : Fin 2) = t.val ∧ win0_0.index t (1 : Fin 2) = 0
    ∧ win0_7.index t (0 : Fin 2) = t.val ∧ win0_7.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0 ∧ True :=
  (by decide +kernel : ∀ t : Fin grid0.N, _)

/-- Row r of point t's block of x is row 2048 t + r of x as launched. -/
theorem x_block (c : Dev nD) (t : Fin cfg0.N) (r : Fin 2048) (k : Fin 768) (b : Fin 65536)
    (hb : b.val = t.val * 2048 + r.val) :
    (iblk m c 0 t : FVec Ideal S2048x768 .f32) (ix2 r k)
      = (m ((c : Thread nD τ).loc main_arg0) : FVec Ideal S65536x768 .f32) (ix2 b k) := by
  have e0 : win0_0.index t (0 : Fin 2) = t.val := (idx_facts t).1
  have e1 : win0_0.index t (1 : Fin 2) = 0 := (idx_facts t).2.1
  unfold iblk
  rw [View.read_apply]
  show V m c main_arg0 _ = _
  rw [V_main_arg0]
  congr 1
  funext a
  apply Fin.ext
  match a with
  | ⟨0, _⟩ => show win0_0.index t (0 : Fin 2) * 2048 + 1 * r.val = b.val; rw [e0, hb]; omega
  | ⟨1, _⟩ => show win0_0.index t (1 : Fin 2) * 768 + 1 * k.val = k.val; rw [e1]; omega

/-- At every grid point the first layer's weight window is its whole array: entry (p, q) of the block is entry (p, q) of the array. -/
theorem weights1_block (c : Dev nD) (t : Fin cfg0.N) (p : Fin 64) (q : Fin 768) :
    (iblk m c 1 t : FVec Ideal S64x768 .bf16) (ix2 p q) = (V m c main_v4 : FVec Ideal S64x768 .bf16) (ix2 p q) := by
  have e0 : win0_1.index t (0 : Fin 2) = 0 := (idx_facts t).2.2.2.2.1
  have e1 : win0_1.index t (1 : Fin 2) = 0 := (idx_facts t).2.2.2.2.2.1
  unfold iblk
  rw [View.read_apply]
  show V m c main_v4 _ = V m c main_v4 _
  congr 1
  funext a
  apply Fin.ext
  match a with
  | ⟨0, _⟩ => show win0_1.index t (0 : Fin 2) * 64 + 1 * p.val = p.val; rw [e0]; omega
  | ⟨1, _⟩ => show win0_1.index t (1 : Fin 2) * 768 + 1 * q.val = q.val; rw [e1]; omega

/-- At every grid point the first layer's row of weight sums is its whole array: entry (p, q) of the block is entry (p, q) of the array. -/
theorem rowsums1_block (c : Dev nD) (t : Fin cfg0.N) (p : Fin 1) (q : Fin 64) :
    (iblk m c 2 t : FVec Ideal S1x64 .f32) (ix2 p q) = (V m c main_v6 : FVec Ideal S1x64 .f32) (ix2 p q) := by
  have e0 : win0_2.index t (0 : Fin 2) = 0 := (idx_facts t).2.2.2.2.2.2.1
  have e1 : win0_2.index t (1 : Fin 2) = 0 := (idx_facts t).2.2.2.2.2.2.2.1
  unfold iblk
  rw [View.read_apply]
  show V m c main_v6 _ = V m c main_v6 _
  congr 1
  funext a
  apply Fin.ext
  match a with
  | ⟨0, _⟩ => show win0_2.index t (0 : Fin 2) * 1 + 1 * p.val = p.val; rw [e0]; omega
  | ⟨1, _⟩ => show win0_2.index t (1 : Fin 2) * 64 + 1 * q.val = q.val; rw [e1]; omega

/-- At every grid point the second layer's weight window is its whole array: entry (p, q) of the block is entry (p, q) of the array. -/
theorem weights2_block (c : Dev nD) (t : Fin cfg0.N) (p : Fin 32) (q : Fin 64) :
    (iblk m c 3 t : FVec Ideal S32x64 .bf16) (ix2 p q) = (V m c main_v11 : FVec Ideal S32x64 .bf16) (ix2 p q) := by
  have e0 : win0_3.index t (0 : Fin 2) = 0 := (idx_facts t).2.2.2.2.2.2.2.2.1
  have e1 : win0_3.index t (1 : Fin 2) = 0 := (idx_facts t).2.2.2.2.2.2.2.2.2.1
  unfold iblk
  rw [View.read_apply]
  show V m c main_v11 _ = V m c main_v11 _
  congr 1
  funext a
  apply Fin.ext
  match a with
  | ⟨0, _⟩ => show win0_3.index t (0 : Fin 2) * 32 + 1 * p.val = p.val; rw [e0]; omega
  | ⟨1, _⟩ => show win0_3.index t (1 : Fin 2) * 64 + 1 * q.val = q.val; rw [e1]; omega

/-- At every grid point the second layer's row of weight sums is its whole array: entry (p, q) of the block is entry (p, q) of the array. -/
theorem rowsums2_block (c : Dev nD) (t : Fin cfg0.N) (p : Fin 1) (q : Fin 32) :
    (iblk m c 4 t : FVec Ideal S1x32 .f32) (ix2 p q) = (V m c main_v13 : FVec Ideal S1x32 .f32) (ix2 p q) := by
  have e0 : win0_4.index t (0 : Fin 2) = 0 := (idx_facts t).2.2.2.2.2.2.2.2.2.2.1
  have e1 : win0_4.index t (1 : Fin 2) = 0 := (idx_facts t).2.2.2.2.2.2.2.2.2.2.2.1
  unfold iblk
  rw [View.read_apply]
  show V m c main_v13 _ = V m c main_v13 _
  congr 1
  funext a
  apply Fin.ext
  match a with
  | ⟨0, _⟩ => show win0_4.index t (0 : Fin 2) * 1 + 1 * p.val = p.val; rw [e0]; omega
  | ⟨1, _⟩ => show win0_4.index t (1 : Fin 2) * 32 + 1 * q.val = q.val; rw [e1]; omega

/-- At every grid point the third layer's weight window is its whole array: entry (p, q) of the block is entry (p, q) of the array. -/
theorem weights3_block (c : Dev nD) (t : Fin cfg0.N) (p : Fin 4) (q : Fin 32) :
    (iblk m c 5 t : FVec Ideal S4x32 .bf16) (ix2 p q) = (V m c main_v18 : FVec Ideal S4x32 .bf16) (ix2 p q) := by
  have e0 : win0_5.index t (0 : Fin 2) = 0 := (idx_facts t).2.2.2.2.2.2.2.2.2.2.2.2.1
  have e1 : win0_5.index t (1 : Fin 2) = 0 := (idx_facts t).2.2.2.2.2.2.2.2.2.2.2.2.2.1
  unfold iblk
  rw [View.read_apply]
  show V m c main_v18 _ = V m c main_v18 _
  congr 1
  funext a
  apply Fin.ext
  match a with
  | ⟨0, _⟩ => show win0_5.index t (0 : Fin 2) * 4 + 1 * p.val = p.val; rw [e0]; omega
  | ⟨1, _⟩ => show win0_5.index t (1 : Fin 2) * 32 + 1 * q.val = q.val; rw [e1]; omega

/-- At every grid point the third layer's row of weight sums is its whole array: entry (p, q) of the block is entry (p, q) of the array. -/
theorem rowsums3_block (c : Dev nD) (t : Fin cfg0.N) (p : Fin 1) (q : Fin 4) :
    (iblk m c 6 t : FVec Ideal S1x4 .f32) (ix2 p q) = (V m c main_v20 : FVec Ideal S1x4 .f32) (ix2 p q) := by
  have e0 : win0_6.index t (0 : Fin 2) = 0 := (idx_facts t).2.2.2.2.2.2.2.2.2.2.2.2.2.2.1
  have e1 : win0_6.index t (1 : Fin 2) = 0 := (idx_facts t).2.2.2.2.2.2.2.2.2.2.2.2.2.2.2.1
  unfold iblk
  rw [View.read_apply]
  show V m c main_v20 _ = V m c main_v20 _
  congr 1
  funext a
  apply Fin.ext
  match a with
  | ⟨0, _⟩ => show win0_6.index t (0 : Fin 2) * 1 + 1 * p.val = p.val; rw [e0]; omega
  | ⟨1, _⟩ => show win0_6.index t (1 : Fin 2) * 4 + 1 * q.val = q.val; rw [e1]; omega

/-- The array the run leaves in the result buffer of core c: G of the four arguments as launched. -/
abbrev result (c : Dev nD) : FVec Ideal S65536x4 .f32 :=
  G (m ((c : Thread nD τ).loc main_arg0) : FVec Ideal S65536x768 .f32) (m ((c : Thread nD τ).loc main_arg1) : FVec Ideal S64x768 .f32) (m ((c : Thread nD τ).loc main_arg2) : FVec Ideal S32x64 .f32) (m ((c : Thread nD τ).loc main_arg3) : FVec Ideal S4x32 .f32)

/-- WHAT POINT t WRITES BACK is block t of the result array: entry (r, o) of the stored block is the network's value
    on row 2048 t + r of x (finite by hypothesis) and the signs of the three weight arrays, which is G at
    (2048 t + r, o). -/
theorem flushed_eq (c : Dev nD) (hx : Finite (m ((c : Thread nD τ).loc main_arg0) : FVec Ideal S65536x768 .f32)) (t : Fin cfg0.N) :
    (dats m 0 c).flushed 7 t = ((cfg0.win 7).blk t).view.read (Elt Ideal) (result m c) := by
  rw [Cert.KernelIdeal.Value.flushed7]
  unfold out0_7
  rw [View.canon_unit_zero hz]
  simp only [View.ld_unit_zero (S := S2048x768) hz, View.ld_unit_zero (S := S64x768) hz, View.ld_unit_zero (S := S1x64) hz,
    View.ld_unit_zero (S := S32x64) hz, View.ld_unit_zero (S := S1x32) hz, View.ld_unit_zero (S := S4x32) hz,
    View.ld_unit_zero (S := S1x4) hz]
  funext y
  have h0 : (y 0).val < 2048 := (y 0).isLt
  have h1 : (y 1).val < 4 := (y 1).isLt
  have ht : t.val < 32 := Nat.lt_of_lt_of_eq t.isLt N_0
  have hb : t.val * 2048 + (y 0).val < 65536 := by omega
  have hy : (win0 7).xinj (grid0.coords t) y = ix2 (⟨(y 0).val, h0⟩ : Fin 2048) (⟨(y 1).val, h1⟩ : Fin 4) :=
    funext fun a => Fin.ext (by match a with | ⟨0, _⟩ => rfl | ⟨1, _⟩ => rfl)
  have hemb : ((cfg0.win 7).blk t).view.emb y
      = ix2 (⟨t.val * 2048 + (y 0).val, hb⟩ : Fin 65536) (⟨(y 1).val, h1⟩ : Fin 4) := by
    funext a
    apply Fin.ext
    match a with
    | ⟨0, _⟩ =>
      show win0_7.index t (0 : Fin 2) * 2048 + 1 * (y 0).val = t.val * 2048 + (y 0).val
      rw [(idx_facts t).2.2.1]; omega
    | ⟨1, _⟩ =>
      show win0_7.index t (1 : Fin 2) * 4 + 1 * (y 1).val = (y 1).val
      rw [(idx_facts t).2.2.2.1]; omega
  show k0_pay1 (F := Ideal) _ _ _ ((win0 7).xinj (grid0.coords t) y) = _
  rw [hy, View.read_apply, hemb]
  refine (Block.stored_entry (iblk m c 0 t) (iblk m c 1 t) (iblk m c 2 t) (iblk m c 3 t) (iblk m c 4 t) (iblk m c 5 t)
    (iblk m c 6 t) (⟨(y 0).val, h0⟩ : Fin 2048) (⟨(y 1).val, h1⟩ : Fin 4)
    (fun k : Fin 768 => ((m ((c : Thread nD τ).loc main_arg0) : FVec Ideal S65536x768 .f32) (ix2 (⟨t.val * 2048 + (y 0).val, hb⟩ : Fin 65536) k)).toReal)
    (fun (j : Fin 64) (k : Fin 768) => signR ((m ((c : Thread nD τ).loc main_arg1) : FVec Ideal S64x768 .f32) (ix2 j k)))
    (fun (j : Fin 32) (k : Fin 64) => signR ((m ((c : Thread nD τ).loc main_arg2) : FVec Ideal S32x64 .f32) (ix2 j k)))
    (fun (j : Fin 4) (k : Fin 32) => signR ((m ((c : Thread nD τ).loc main_arg3) : FVec Ideal S4x32 .f32) (ix2 j k)))
    (fun k => (x_block m c t (⟨(y 0).val, h0⟩ : Fin 2048) k (⟨t.val * 2048 + (y 0).val, hb⟩ : Fin 65536) rfl).trans (hx _))
    (fun j k => (weights1_block m c t j k).trans ((Windows.weights1 m c j k).trans (signE_eq _)))
    (fun j => (rowsums1_block m c t (0 : Fin 1) j).trans (Windows.rowsums1 m c j))
    (fun j k => (weights2_block m c t j k).trans ((Windows.weights2 m c j k).trans (signE_eq _)))
    (fun j => (rowsums2_block m c t (0 : Fin 1) j).trans (Windows.rowsums2 m c j))
    (fun j k => (weights3_block m c t j k).trans ((Windows.weights3 m c j k).trans (signE_eq _)))
    (fun j => (rowsums3_block m c t (0 : Fin 1) j).trans (Windows.rowsums3 m c j))).trans ?_
  rfl

/-- Every row of the result lies in some point's block: row i in the block of point i / 2048. -/
theorem covered (i : S65536x4.Idx) :
    ∃ t : Fin cfg0.N, (cfg0.win 7).flush t = true ∧ i ∈ ((cfg0.win 7).blk t).view.set := by
  have hi0 : (i 0).val < 65536 := (i 0).isLt
  have hi1 : (i 1).val < 4 := (i 1).isLt
  have hN : cfg0.N = 32 := N_0
  obtain ⟨t, ht⟩ : ∃ t : Fin cfg0.N, t.val = (i 0).val / 2048 := ⟨⟨(i 0).val / 2048, by rw [hN]; omega⟩, rfl⟩
  refine ⟨t, flush0_7 t, ?_⟩
  show i ∈ ((View.whole main_v21).slice (win0_7.rect t)).set
  rw [View.set_slice_whole, Rect.mem_set_unit]
  intro a
  match a with
  | ⟨0, _⟩ =>
    show win0_7.index t (0 : Fin 2) * 2048 ≤ (i 0).val ∧ (i 0).val < win0_7.index t (0 : Fin 2) * 2048 + 2048
    rw [(idx_facts t).2.2.1, ht]; omega
  | ⟨1, _⟩ =>
    show win0_7.index t (1 : Fin 2) * 4 ≤ (i 1).val ∧ (i 1).val < win0_7.index t (1 : Fin 2) * 4 + 4
    rw [(idx_facts t).2.2.2.1]; omega

/-- So the result array ends holding G of the arguments: the blocks the points write tile it. -/
theorem final (c : Dev nD) (hx : Finite (m ((c : Thread nD τ).loc main_arg0) : FVec Ideal S65536x768 .f32)) : (dats m 0 c).arrAt 7 cfg0.N = result m c :=
  (dats m 0 c).arrAt_eq_of_cover 7 (result m c) (fun t _ => flushed_eq m c hx t) covered

/-- The kernel's run, read: from a memory whose x is finite on every core, every weakly fair execution ends with the
    result buffer at G of the arguments and the arguments unchanged. -/
theorem run (hx : ∀ c : Dev nD, Finite (m ((c : Thread nD τ).loc main_arg0) : FVec Ideal S65536x768 .f32)) :
    θ_run defs (onTc (τ := τ) (main (F := Ideal))) ⟨m, fun _ => 0, ρ⟩ fun r => ∀ c : Dev nD,
      r.2.mem ((c : Thread nD τ).loc main_v21) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c (hx c)), (h c).2⟩)
    (Cert.KernelIdeal.Value.run_blocks m ρ)

end Cert.KernelIdeal.Result

end
-- ==== Proof.FiniteInputs.lean ====
/-
  From the precondition to finite inputs.

  The precondition is the conjunction, over the four arguments a, of "every entry of |a| is below +∞". On the extended
  reals |a| is max a (−a) and the comparison is the order's, so an entry passes exactly when it is neither +∞ nor −∞,
  that is, when it is a real number. A conjunction of bits is 1 only if each bit is, and a reduction by "and" over
  every axis that yields 1 met a 1 at every index; so the single bit the precondition fixes to 1 says that each entry of
  each argument is the inclusion of its real part.
-/
import proofs.«130607_j20512763805724_2_alg».proof.Proof.Gen.Pre_finite_inputs
import Idealize.ShloMosaic.Lib.ReduceAll
import Idealize.ShloMosaic.Lib.ValueIdx
import proofs.«130607_j20512763805724_2_alg».proof.Proof.Spec

noncomputable section

namespace Cert.Pre_finite_inputs.Decode

open Idealize.ShloMosaic Idealize.ShloMosaic.ValueIdx Cert.Pre_finite_inputs

/-- A shape with no axes has exactly one index. -/
instance subsingleton_scalar_idx : Subsingleton S_.Idx := ⟨fun _ _ => funext fun d => d.elim0⟩

/-- The bit pattern the predicate compares against denotes +∞. -/
theorem lit_top : Ideal.ofBits .f32 0x7F800000#32 = (⊤ : EReal) := by simp [Ideal.ofBits, Ideal.ieee]

/-- An extended real whose absolute value max a (−a) is below +∞ is a real number: +∞ fails the bound itself, and −∞
    fails it through its negation. -/
theorem eq_coe_toReal_of_abs_lt_top (a : EReal) (h : max a (-a) < ⊤) : a = ((a.toReal : ℝ) : EReal) := by
  induction a using EReal.rec with
  | bot => simp at h
  | coe r => rw [EReal.toReal_coe]
  | top => simp at h

/-- One argument. If the conjunction over every index of |a| < +∞ is 1, every entry of a is a real number: the
    reduction had a 1 at each index, which is the strict bound on that entry's absolute value. -/
theorem finite_of_all {s : Shape} {axes : List (Fin s.rank)} (a : FVec Ideal s .f32)
    (hb : S_.BroadcastsInDim s (![] : Fin 0 → Fin s.rank)) (hr : s.ReducesTo axes S_) (hu : 0 < S_.numel)
    (e : Host.reduce IntOp.andi (cmpf .olt (Host.absf a) (broadcastInDim s ![] hb (constant S_ .f32 0x7F800000#32)))
        (constantI S_ 1 1#1) hr hu ix0 = 1#1) :
    BinaryNet.Finite a := by
  intro i
  have h1 : Ideal.cmp .olt (max (a i) (-(a i))) (Ideal.ofBits .f32 0x7F800000#32) = 1#1 :=
    Host.reduce_andi_all _ _ hr hu ix0 e i
  rw [lit_top] at h1
  refine eq_coe_toReal_of_abs_lt_top (a i) ?_
  by_contra hn
  simp only [Ideal.cmp, hn, decide_false, BitVec.ofBool_false] at h1
  exact absurd h1 (by decide)

/-- The precondition's single bit is the conjunction of the four arguments' bits; split it and read each. -/
theorem finite_of_pre [Cert.Pre_finite_inputs.Facts] (x : FVec Ideal S65536x768 .f32) (w1 : FVec Ideal S64x768 .f32)
    (w2 : FVec Ideal S32x64 .f32) (w3 : FVec Ideal S4x32 .f32)
    (h : Cert.Pre_finite_inputs.fn (F := Ideal) x w1 w2 w3 = (fun _ => 1#1)) :
    BinaryNet.Finite x ∧ BinaryNet.Finite w1 ∧ BinaryNet.Finite w2 ∧ BinaryNet.Finite w3 := by
  have h0 := congrFun h ix0
  dsimp only [Cert.Pre_finite_inputs.fn, Cert.Pre_finite_inputs.fn_part1] at h0
  obtain ⟨h012, e3⟩ := IntOp.andi_eq_one.1 h0
  obtain ⟨h01, e2⟩ := IntOp.andi_eq_one.1 h012
  obtain ⟨e0, e1⟩ := IntOp.andi_eq_one.1 h01
  exact ⟨finite_of_all x _ _ _ e0, finite_of_all w1 _ _ _ e1, finite_of_all w2 _ _ _ e2, finite_of_all w3 _ _ _ e3⟩

end Cert.Pre_finite_inputs.Decode

end
-- ==== Proof.lean ====
/-
  The kernel and its reference compute the same [65536, 4] array on the extended reals.

  Both programs apply three binarized stochastic linear layers (768 → 64 → 32 → 4) to each row of x. A layer takes a
  row p of activations and, for each output unit, a row s of signs of the unit's weights (1 where the weight is at
  least 0, else −1), and with e = 2p − 1 returns (c − Σ e² + (Σ e·s)²) / c², c the row length. The reference builds
  d = 4p(1 − p) and e explicitly, sums d + e² (identically 1), contracts e against w + (s − w) and e² against the squares
  of those weights; the kernel never forms e: it contracts p itself against s and uses Σ e·s = 2 Σ p·s − Σ s and
  Σ e² = 4 Σ p² − 4 Σ p + c, the row sums of s computed once outside the grid. The two arrangements agree because
  products distribute over sums and w + (s − w) = s, which holds for real entries and fails at an infinity: this is where
  the precondition (every input entry finite) is used, and a layer's value on finite data is finite again, so the argument
  repeats through the three layers.

  The kernel works on blocks of 2048 rows over a grid of 32 points; each row of the result depends on the same row of x
  only, so the blocks the points write are the blocks of one array, the function G of the four arguments, and they tile
  it. The reference's run ends with its composed term of the arguments, which index by index is G as well.

  The three frame claims are the programs' generated runs; the idealization rewrote no operation, so the kernel's
  idealized text is its own text read at the extended reals and that claim is trivial.
-/
import proofs.«130607_j20512763805724_2_alg».proof.Defs
import proofs.«130607_j20512763805724_2_alg».proof.Proof.Gen.Kernel
import proofs.«130607_j20512763805724_2_alg».proof.Proof.Gen.Kernel.Skeleton
import proofs.«130607_j20512763805724_2_alg».proof.Proof.Gen.Kernel.Launch
import proofs.«130607_j20512763805724_2_alg».proof.Proof.Gen.Kernel.Points
import proofs.«130607_j20512763805724_2_alg».proof.Proof.Gen.Kernel.Frame
import proofs.«130607_j20512763805724_2_alg».proof.Proof.Gen.KernelIdeal
import proofs.«130607_j20512763805724_2_alg».proof.Proof.Gen.KernelIdeal.Skeleton
import proofs.«130607_j20512763805724_2_alg».proof.Proof.Gen.KernelIdeal.Launch
import proofs.«130607_j20512763805724_2_alg».proof.Proof.Gen.KernelIdeal.Points
import proofs.«130607_j20512763805724_2_alg».proof.Proof.Gen.KernelIdeal.Frame
import proofs.«130607_j20512763805724_2_alg».proof.Proof.Gen.ReferenceIdeal
import proofs.«130607_j20512763805724_2_alg».proof.Proof.Gen.KernelIdeal.Value
import proofs.«130607_j20512763805724_2_alg».proof.Proof.Gen.Pre_finite_inputs
import proofs.«130607_j20512763805724_2_alg».proof.Proof.RunP
import proofs.«130607_j20512763805724_2_alg».proof.Proof.RefValue
import proofs.«130607_j20512763805724_2_alg».proof.Proof.KernelValue
import proofs.«130607_j20512763805724_2_alg».proof.Proof.FiniteInputs
import Idealize.ShloMosaic.Adequacy
import Idealize.ShloMosaic.Init

noncomputable section

namespace Cert.Proof

open Idealize.ShloMosaic Idealize.ShloMosaic.TcCoe Idealize.SL.Sem

/-- The kernel as printed runs, faults nowhere and leaves its arguments as launched. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- No operation was rewritten: nothing to restate. -/
theorem preserves : Cert.preserves_Kernel_KernelIdeal := trivial

/-- From memories that agree on the arguments and whose arguments are finite, the kernel's result array ends at G of
    the arguments (the blocks its grid points write tile G) and the reference's at its composed term, which is G
    index by index. -/
theorem algebraic : Cert.algebraic_KernelIdeal_ReferenceIdeal := by
  intro m ρ m' ρ' hpre hagree
  have hfin := fun c => Cert.Pre_finite_inputs.Decode.finite_of_pre _ _ _ _ (hpre c)
  refine ⟨fun c => Cert.KernelIdeal.Result.result m c, Cert.KernelIdeal.Result.run m ρ (fun c => (hfin c).1), ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ValueP.val_main_v86_eq, (hagree c).1, (hagree c).2.1, (hagree c).2.2.1, (hagree c).2.2.2]
  exact Cert.ReferenceIdeal.RefValue.reference_eq_G _ _ _ _ (hfin c).1 (hfin c).2.1 (hfin c).2.2.1 (hfin c).2.2.2

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
